-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S16384x4096 .f32) (main_arg1 : FVec F S4096x4096 .f32) (main_arg2 : FVec F S4096 .f32) (main_arg3 : FVec F S4096 .f32) (main_arg4 : FVec F S4096 .f32) (main_arg5 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S4096x1 : Shape := ⟨2, ![4096, 1]⟩
abbrev S256 : Shape := ⟨1, ![256]⟩
abbrev S1x256 : Shape := ⟨2, ![1, 256]⟩
abbrev S4096x256 : Shape := ⟨2, ![4096, 256]⟩
abbrev S256x4096 : Shape := ⟨2, ![256, 4096]⟩
abbrev S256x512 : Shape := ⟨2, ![256, 512]⟩
abbrev S4096x512 : Shape := ⟨2, ![4096, 512]⟩
abbrev S256x256 : Shape := ⟨2, ![256, 256]⟩

abbrev nBuf : Space → Nat
  | .hbm => 40
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S16384x4096, .bf16⟩
  | .hbm, ⟨7, _⟩ => ⟨S4096x4096, .bf16⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S4096, .i32⟩
  | .hbm, ⟨13, _⟩ => ⟨S_, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S256, .i32⟩
  | .hbm, ⟨33, _⟩ => ⟨S1x256, .i32⟩
  | .hbm, ⟨34, _⟩ => ⟨S4096x256, .i32⟩
  | .hbm, ⟨35, _⟩ => ⟨S4096x256, .i32⟩
  | .hbm, ⟨36, _⟩ => ⟨S4096x256, .i1⟩
  | .hbm, ⟨37, _⟩ => ⟨S4096x256, .bf16⟩
  | .hbm, ⟨38, _⟩ => ⟨S256x4096, .bf16⟩
  | .hbm, ⟨39, _⟩ => ⟨S16384x4096, .f32⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S4096x256, .bf16⟩
  | .local _ .vmem, ⟨9, _⟩ => ⟨S256x4096, .bf16⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bitsLt_bf16_f32 : FTy.bits .bf16 < FTy.bits .f32
  shapeCasts_S4096_S1x4096 : S4096.ShapeCasts S1x4096
  bcast_S_S4096 : S_.BroadcastsInDim S4096 (![] : Fin 0 → Fin S4096.rank)
  bcast_S4096_S4096x1_0 : S4096.BroadcastsInDim S4096x1 (![0] : Fin 1 → Fin S4096x1.rank)
  bcast_S256_S1x256_1 : S256.BroadcastsInDim S1x256 (![1] : Fin 1 → Fin S1x256.rank)
  bcast_S4096x1_S4096x256_0_1 : S4096x1.BroadcastsInDim S4096x256 (![0, 1] : Fin 2 → Fin S4096x256.rank)
  bcast_S1x256_S4096x256_0_1 : S1x256.BroadcastsInDim S4096x256 (![0, 1] : Fin 2 → Fin S4096x256.rank)
  transposes_S4096x256_S256x4096_1_0 : S4096x256.Transposes [1, 0] S256x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  dot_S256x512_S4096x512_S256x4096_1_1_0_0_n_n_wf : DotDims.WF S256x512 S4096x512 S256x4096 [1] [1] [0] [0] [] []
  dot_S256x4096_S4096x256_S256x256_1_0_0_1_n_n_wf : DotDims.WF S256x4096 S4096x256 S256x256 [1] [0] [0] [1] [] []
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x4096.size a
  hwx0_0 : ∀ i : grid0.Coords, EltTy.bits .bf16 = 32 ∨ (Rect.block (s := S16384x4096) S256x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x256.size a ≤ S4096x256.size a
  hwx0_6 : ∀ i : grid0.Coords, EltTy.bits .bf16 = 32 ∨ (Rect.block (s := S4096x256) S4096x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x4096.size a ≤ S256x4096.size a
  hwx0_7 : ∀ i : grid0.Coords, EltTy.bits .bf16 = 32 ∨ (Rect.block (s := S256x4096) S256x4096.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x4096.size a ≤ S16384x4096.size a
  hwx0_8 : ∀ i : grid0.Coords, EltTy.bits .f32 = 32 ∨ (Rect.block (s := S16384x4096) S256x4096.size (cc0_transform_8 i) (hinb0_8 i)).WholeWords (EltTy.packing .f32)

variable [Facts₀]

def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S4096x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S256x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S256x4096.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S16384x256x16 : Shape := ⟨3, ![16384, 256, 16]⟩
abbrev S_ : Shape := ⟨0, ![]⟩
abbrev S16384x256 : Shape := ⟨2, ![16384, 256]⟩
abbrev S16384x256x1 : Shape := ⟨3, ![16384, 256, 1]⟩

abbrev nBuf : Space → Nat
  | .hbm => 62
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S16384x4096, .f32⟩
  | .hbm, ⟨7, _⟩ => ⟨S1x4096, .f32⟩
  | .hbm, ⟨8, _⟩ => ⟨S16384x4096, .f32⟩
  | .hbm, ⟨9, _⟩ => ⟨S16384x4096, .f32⟩
  | .hbm, ⟨10, _⟩ => ⟨S16384x256x16, .f32⟩
  | .hbm, ⟨11, _⟩ => ⟨S_, .f32⟩
  | .hbm, ⟨12, _⟩ => ⟨S16384x256, .f32⟩
  | .hbm, ⟨13, _⟩ => ⟨S16384x256x1, .f32⟩
  | .hbm, ⟨14, _⟩ => ⟨S_, .f32⟩
  | .hbm, ⟨15, _⟩ => ⟨S16384x256x1, .f32⟩
  | .hbm, ⟨16, _⟩ => ⟨S16384x256x1, .f32⟩
  | .hbm, ⟨17, _⟩ => ⟨S16384x256x16, .f32⟩
  | .hbm, ⟨18, _⟩ => ⟨S16384x256x16, .f32⟩
  | .hbm, ⟨19, _⟩ => ⟨S16384x256x16, .f32⟩
  | .hbm, ⟨20, _⟩ => ⟨S_, .f32⟩
  | .hbm, ⟨21, _⟩ => ⟨S16384x256, .f32⟩
  | .hbm, ⟨22, _⟩ => ⟨S16384x256x1, .f32⟩
  | .hbm, ⟨23, _⟩ => ⟨S_, .f32⟩
  | .hbm, ⟨24, _⟩ => ⟨S16384x256x1, .f32⟩
  | .hbm, ⟨25, _⟩ => ⟨S16384x256x1, .f32⟩
  | .hbm, ⟨26, _⟩ => ⟨S16384x256x16, .f32⟩
  | .hbm, ⟨27, _⟩ => ⟨S16384x256x16, .f32⟩
  | .hbm, ⟨28, _⟩ => ⟨S_, .f32⟩
  | .hbm, ⟨29, _⟩ => ⟨S16384x256x1, .f32⟩
  | .hbm, ⟨30, _⟩ => ⟨S16384x256x1, .f32⟩
  | .hbm, ⟨31, _⟩ => ⟨S16384x256x1, .f32⟩
  | .hbm, ⟨32, _⟩ => ⟨S16384x256x16, .f32⟩
  | .hbm, ⟨33, _⟩ => ⟨S16384x256x16, .f32⟩
  | .hbm, ⟨34, _⟩ => ⟨S16384x4096, .f32⟩
  | .hbm, ⟨35, _⟩ => ⟨S1x4096, .f32⟩
  | .hbm, ⟨36, _⟩ => ⟨S16384x4096, .f32⟩
  | .hbm, ⟨37, _⟩ => ⟨S16384x4096, .f32⟩
  | .hbm, ⟨38, _⟩ => ⟨S1x4096, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384x4096, .f32⟩
  | .hbm, ⟨48, _⟩ => ⟨S16384x4096, .f32⟩
  | .hbm, ⟨49, _⟩ => ⟨S16384x4096, .f32⟩
  | .hbm, ⟨50, _⟩ => ⟨S1x4096, .f32⟩
  | .hbm, ⟨51, _⟩ => ⟨S16384x4096, .f32⟩
  | .hbm, ⟨52, _⟩ => ⟨S16384x4096, .f32⟩
  | .hbm, ⟨53, _⟩ => ⟨S16384x4096, .f32⟩
  | .hbm, ⟨54, _⟩ => ⟨S16384x4096, .f32⟩
  | .hbm, ⟨55, _⟩ => ⟨S_, .f32⟩
  | .hbm, ⟨56, _⟩ => ⟨S16384x4096, .f32⟩
  | .hbm, ⟨57, _⟩ => ⟨S16384x4096, .f32⟩
  | .hbm, ⟨58, _⟩ => ⟨S_, .f32⟩
  | .hbm, ⟨59, _⟩ => ⟨S16384x4096, .f32⟩
  | .hbm, ⟨60, _⟩ => ⟨S16384x4096, .f32⟩
  | .hbm, ⟨61, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  shapeCasts_S16384x4096_S16384x256x16 : S16384x4096.ShapeCasts S16384x256x16
  reducesTo_S16384x256x16_S16384x256_d2 : S16384x256x16.ReducesTo [2] S16384x256
  h_S_ : 0 < S_.numel
  bcast_S16384x256_S16384x256x1_0_1 : S16384x256.BroadcastsInDim S16384x256x1 (![0, 1] : Fin 2 → Fin S16384x256x1.rank)
  bcast_S_S16384x256x1 : S_.BroadcastsInDim S16384x256x1 (![] : Fin 0 → Fin S16384x256x1.rank)
  bcast_S16384x256x1_S16384x256x16_0_1_2 : S16384x256x1.BroadcastsInDim S16384x256x16 (![0, 1, 2] : Fin 3 → Fin S16384x256x16.rank)
  shapeCasts_S16384x256x16_S16384x4096 : S16384x256x16.ShapeCasts S16384x4096
  bcast_S_S16384x4096 : S_.BroadcastsInDim S16384x4096 (![] : Fin 0 → Fin S16384x4096.rank)
  dot_S16384x4096_S4096x4096_S16384x4096_1_1_0_0_n_n_wf : DotDims.WF S16384x4096 S4096x4096 S16384x4096 [1] [1] [0] [0] [] []

variable [Facts₀]

def dot_S16384x4096_S4096x4096_S16384x4096_1_1_0_0_n_n : DotDims S16384x4096 S4096x4096 S16384x4096 where
  lhsContracting := [1]
  rhsContracting := [1]
  lhsNonContracting := [0]
  rhsNonContracting := [0]
  lhsBatch := []
  rhsBatch := []
  wf := dot_S16384x4096_S4096x4096_S16384x4096_1_1_0_0_n_n_wf

class Facts : Prop extends Facts₀ where

variable [Facts]
-- ==== Proof.CaseValues.lean ====
/-
  What one run of the kernel body leaves behind, case by case, as values.

  The body keeps a [256, 4096] accumulator between the eight steps of a row block.  At the first step it stores
  zeros and then the zero block plus the product of the step's x-chunk [256, 512] with the step's w-chunk
  [4096, 512] (contracted over the chunk's 512 columns); at a middle step it stores what the previous step left
  plus that step's product; at the last step it does the same and then writes the output block: the group
  normalization, affine map and two swish stages of the finished accumulator.  Each statement below reads the
  stores the body made in that case back as one pure term of the blocks it loaded.
-/
import proofs.«100290_j62852551409980_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.CaseValues

open Cert.KernelIdeal Cert.KernelIdeal.Gen

variable {F : FTy → Type} [FloatOps F]

/-- The origin of a rank-2 block. -/
theorem hz : (![0, 0] : Fin 2 → Nat) = fun _ => 0 := funext fun a => by fin_cases a <;> rfl

/-- A middle step leaves in the accumulator: what it held, plus the product of the step's chunks. -/
theorem scratch_B (c : Dev nD) (i : grid0.Coords) (arg2 : Memref sig .tc .vmem S256x512 .bf16) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S4096x256 .bf16) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (hc0 : ¬cond0_0 i) (hc1 : ¬cond0_1 i) (x0 : Vec F S256x512 .bf16) (x1 : Vec F S4096x512 .bf16) (x2 : Vec F S1x4096 .f32) (x3 : Vec F S1x4096 .f32) (x4 : Vec F S1x4096 .f32) (x5 : Vec F S1x4096 .f32) (x6 : Vec F S4096x256 .bf16) (x7 : Vec F S256x4096 .bf16) (xs0 : Vec F S256x4096 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  rw [View.canon_unit_zero hz]
  simp only [View.readAt_eq_ld, harg2.read_unread, harg3.read_unread, harg4.read_unread, harg5.read_unread, harg6.read_unread, harg7.read_unread, harg8.read_unread, harg9.read_unread, harg11.read_unread, View.ld_unit_zero (S := S256x512) hz, View.ld_unit_zero (S := S4096x512) hz, View.ld_unit_zero (S := S256x4096) hz, View.ld_unit_zero (S := S1x4096) hz, View.ld_unit_zero (S := S4096x256) hz]

/-- The first step leaves in the accumulator: the zero block plus the product of the step's chunks (the zero
    block is stored, read back, and overwritten by the sum). -/
theorem scratch_A (c : Dev nD) (i : grid0.Coords) (arg2 : Memref sig .tc .vmem S256x512 .bf16) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S4096x256 .bf16) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (hc0 : cond0_0 i) (hc1 : ¬cond0_1 i) (x0 : Vec F S256x512 .bf16) (x1 : Vec F S4096x512 .bf16) (x2 : Vec F S1x4096 .f32) (x3 : Vec F S1x4096 .f32) (x4 : Vec F S1x4096 .f32) (x5 : Vec F S1x4096 .f32) (x6 : Vec F S4096x256 .bf16) (x7 : Vec F S256x4096 .bf16) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = k0_pay2 x0 x1 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S256x4096) hz, View.readCov_unit_zero (S := S256x4096) _ hz]
  simp only [View.readAt_eq_ld, harg2.read_unread, harg3.read_unread, harg4.read_unread, harg5.read_unread, harg6.read_unread, harg7.read_unread, harg8.read_unread, harg9.read_unread, harg11.read_unread, View.ld_unit_zero (S := S256x512) hz, View.ld_unit_zero (S := S4096x512) hz, View.ld_unit_zero (S := S256x4096) hz, View.ld_unit_zero (S := S1x4096) hz, View.ld_unit_zero (S := S4096x256) hz]

/-- The last step writes to the output block: the epilogue of the finished accumulator (what the step before
    left plus this step's product), with the bias, the two group matrices, the normalization's scale and shift,
    and the per-channel multiplier. -/
theorem out_C (c : Dev nD) (i : grid0.Coords) (arg2 : Memref sig .tc .vmem S256x512 .bf16) (harg2 : arg2.IsWhole) (arg3 : Memref sig .tc .vmem S4096x512 .bf16) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S4096x256 .bf16) (harg8 : arg8.IsWhole) (arg9 : Memref sig .tc .vmem S256x4096 .bf16) (harg9 : arg9.IsWhole) (arg10 : Memref sig .tc .vmem S256x4096 .f32) (harg10 : arg10.IsWhole) (arg11 : Memref sig .tc .vmem S256x4096 .f32) (harg11 : arg11.IsWhole) (hc0 : ¬cond0_0 i) (hc1 : cond0_1 i) (x0 : Vec F S256x512 .bf16) (x1 : Vec F S4096x512 .bf16) (x2 : Vec F S1x4096 .f32) (x3 : Vec F S1x4096 .f32) (x4 : Vec F S1x4096 .f32) (x5 : Vec F S1x4096 .f32) (x6 : Vec F S4096x256 .bf16) (x7 : Vec F S256x4096 .bf16) (xs0 : Vec F S256x4096 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay3 (k0_pay4 (k0_pay2 x0 x1 xs0) x2 x6 x7 x4 x5) x3 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz, View.readCov_unit_zero (S := S256x4096) _ hz]
  simp only [View.readAt_eq_ld, harg2.read_unread, harg3.read_unread, harg4.read_unread, harg5.read_unread, harg6.read_unread, harg7.read_unread, harg8.read_unread, harg9.read_unread, harg11.read_unread, View.ld_unit_zero (S := S256x512) hz, View.ld_unit_zero (S := S4096x512) hz, View.ld_unit_zero (S := S256x4096) hz, View.ld_unit_zero (S := S1x4096) hz, View.ld_unit_zero (S := S4096x256) hz]

end Cert.KernelIdeal.CaseValues

end
-- ==== Proof.LibTRef.lean ====
/-
  Typed references to tensor buffers carry contents along the equation between the buffer's type and the value's
  type, in both directions.  Going to the buffer and back is the identity: a value an operation writes through a
  typed reference and a later operation reads through the same reference is read unchanged.  General; no program
  is imported.
-/
import Idealize.ShloMosaic.Lib.StableHlo

namespace Idealize.ShloMosaic.StableHlo.TRef

variable {sig : RefSig} {Val : EltTy → Type} {T : BufTy}

/-- Contents carried to a typed reference's buffer and back are the contents. -/
theorem ofBuf_toBuf (x : TRef sig T) (v : T.Contents Val) : x.ofBuf (x.toBuf v) = v := by
  obtain ⟨r, rfl, _, _⟩ := x
  rfl

/-- Contents of the buffer carried to the value's type and back are the contents. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.GroupMatrix.lean ====
/-
  The two group matrices the kernel is handed, read entry by entry.

  The host builds, from an iota over the 4096 channels floor-divided by 16 and an iota over the 256 groups, the
  matrix `G [4096, 256]` whose entry `(n, g)` is 1 when channel `n` belongs to group `g` (that is, `n / 16 = g`) and 0
  otherwise, and its transpose `[256, 4096]`.  jnp's floor division is the truncating quotient, less one when the
  operands' signs differ and the remainder is not zero; on the channel numbers below 4096 it is the plain quotient
  by 16, which is checked channel by channel.
-/
import proofs.«100290_j62852551409980_1_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx
import Idealize.ShloMosaic.Lib.IdealHost
import proofs.«100290_j62852551409980_1_alg».proof.Proof.LibTRef

noncomputable section

open Idealize.ShloMosaic Idealize.ShloMosaic.TcCoe Idealize.SL.Sem Idealize.ShloMosaic.ValueIdx
open Idealize.ShloMosaic.Pipeline (Dat)

namespace Cert.KernelIdeal.GroupMatrix

open Cert.KernelIdeal Cert.KernelIdeal.Gen

/-- A vector over the channels made a column and repeated along the groups reads, at `(n, g)`, the vector at `n`. -/
theorem bcast_col {α : Type} (v : S4096.Idx → α) (n : Fin 4096) (g : Fin 256) :
    broadcastInDim S4096x256 ![0, 1] Facts₀.bcast_S4096x1_S4096x256_0_1 (broadcastInDim S4096x1 ![0] Facts₀.bcast_S4096_S4096x1_0 v) (ix2 n g) = v (ix1 n) := by
  rw [broadcastInDim_apply _ _ _ (ix2 n g) (ix2 n (0 : Fin 1)) (fun a => by
    match a with
    | ⟨0, _⟩ => show n.val = if (4096 : ℕ) = 1 then 0 else n.val; rw [if_neg (by decide)]
    | ⟨1, _⟩ => show (0 : ℕ) = if (1 : ℕ) = 1 then 0 else g.val; rw [if_pos rfl])]
  rw [broadcastInDim_apply _ _ _ (ix2 n (0 : Fin 1)) (ix1 n) (fun a => by
    match a with
    | ⟨0, _⟩ => show n.val = if (4096 : ℕ) = 1 then 0 else n.val; rw [if_neg (by decide)])]

/-- A vector over the groups made a row and repeated down the channels reads, at `(n, g)`, the vector at `g`. -/
theorem bcast_row {α : Type} (u : S256.Idx → α) (n : Fin 4096) (g : Fin 256) :
    broadcastInDim S4096x256 ![0, 1] Facts₀.bcast_S1x256_S4096x256_0_1 (broadcastInDim S1x256 ![1] Facts₀.bcast_S256_S1x256_1 u) (ix2 n g) = u (ix1 g) := by
  rw [broadcastInDim_apply _ _ _ (ix2 n g) (ix2 (0 : Fin 1) g) (fun a => by
    match a with
    | ⟨0, _⟩ => show (0 : ℕ) = if (1 : ℕ) = 1 then 0 else n.val; rw [if_pos rfl]
    | ⟨1, _⟩ => show g.val = if (256 : ℕ) = 1 then 0 else g.val; rw [if_neg (by decide)])]
  rw [broadcastInDim_apply _ _ _ (ix2 (0 : Fin 1) g) (ix1 g) (fun a => by
    match a with
    | ⟨0, _⟩ => show g.val = if (256 : ℕ) = 1 then 0 else g.val; rw [if_neg (by decide)])]

/-- The sign of a word: 0, 1 or -1. -/
def sgn (x : BitVec 32) : BitVec 32 := if x = 0 then 0 else if x.msb then -1 else 1

/-- Floor division by 16 on a word, as jnp spells it: the truncating quotient, less one when the signs of the
    operands differ and the remainder is not zero. -/
def floorDiv16 (x : BitVec 32) : BitVec 32 :=
  Scalar.select (IntOp.andi (IntOp.cmpi .ne (sgn x) (sgn 16#32)) (IntOp.cmpi .ne (IntOp.remsi .host x 16#32) 0#32))
    (IntOp.subi (IntOp.divsi .host x 16#32) 1#32) (IntOp.divsi .host x 16#32)

/-- On a channel number it is the quotient by 16 (each of the 4096 channel numbers evaluated). -/
theorem floorDiv16_small : ∀ n : Fin 4096, floorDiv16 (BitVec.ofNat 32 n.val) = BitVec.ofNat 32 (n.val / 16) := by
  decide +kernel

/-- Two small numbers are equal as 32-bit words only if they are equal. -/
theorem ofNat_inj_small {a b : ℕ} (ha : a < 4096) (hb : b < 4096) (e : BitVec.ofNat 32 a = BitVec.ofNat 32 b) : a = b := by
  have := congrArg BitVec.toNat e
  simp only [BitVec.toNat_ofNat] at this
  omega

variable (m : (ℓ : Loc nD τ sig) → Buf (Elt Ideal) ℓ)

set_option maxHeartbeats 1600000 in
/-- Entry `(n, g)` of the group matrix is 1 when `n / 16 = g` and 0 otherwise. -/
theorem G_apply (c : Dev nD) (n : Fin 4096) (g : Fin 256) :
    V m c main_v14 (ix2 n g) = if n.val / 16 = g.val then (1 : EReal) else 0 := by
  dsimp only [V]
  simp only [hostOps0, hostOps0_1, hostOps0_2, List.flatten_cons, List.flatten_nil, List.append_nil, List.cons_append, List.nil_append]
  after_results_simp
  simp only [StableHlo.TRef.ofBuf_toBuf, id]
  simp only [uitofp, cmpi]
  rw [bcast_col, bcast_row]
  show FloatOps.uitofp (F := Ideal) .bf16 (IntOp.cmpi .eq (floorDiv16 (BitVec.ofNat 32 n.val)) (BitVec.ofNat 32 g.val)) = _
  rw [floorDiv16_small n]
  show (((IntOp.cmpi .eq (BitVec.ofNat 32 (n.val / 16)) (BitVec.ofNat 32 g.val)).toNat : ℝ) : EReal) = _
  have hn := n.isLt
  have hg := g.isLt
  by_cases h : n.val / 16 = g.val
  · rw [if_pos h, h]
    simp [IntOp.cmpi]
  · rw [if_neg h]
    have hne : BitVec.ofNat 32 (n.val / 16) ≠ BitVec.ofNat 32 g.val := fun e => h (ofNat_inj_small (by omega) (by omega) e)
    simp [IntOp.cmpi, hne]

set_option maxHeartbeats 1600000 in
/-- The second matrix is the transpose of the first. -/
theorem V_v15 (c : Dev nD) :
    V m c main_v15 = transpose S256x4096 [1, 0] (V m c main_v14) Facts₀.transposes_S4096x256_S256x4096_1_0 := by
  dsimp only [V]
  simp only [hostOps0, hostOps0_1, hostOps0_2, List.flatten_cons, List.flatten_nil, List.append_nil, List.cons_append, List.nil_append]
  after_results_simp

/-- Entry `(g, n)` of the transposed group matrix is 1 when `n / 16 = g` and 0 otherwise. -/
theorem GT_apply (c : Dev nD) (g : Fin 256) (n : Fin 4096) :
    V m c main_v15 (ix2 g n) = if n.val / 16 = g.val then (1 : EReal) else 0 := by
  rw [V_v15, transpose_apply _ _ _ (ix2 g n) (ix2 n g) (fun b => by
    match b with
    | ⟨0, _⟩ => rfl
    | ⟨1, _⟩ => rfl)]
  exact G_apply m c n g

end Cert.KernelIdeal.GroupMatrix
end
-- ==== Proof.Blocks.lean ====
/-
  What the kernel's windows hold at a grid point, in terms of the program's arguments.

  The grid has 64 row blocks times 8 steps; point `t` is row block `t / 8`, step `t % 8`.  The x window's block at
  `t` is rows `256·(t/8) …` and columns `512·(t%8) …` of `x` (its bf16 copy: the same extended reals); the w window's
  block is all 4096 rows and columns `512·(t%8) …` of `w`; the four per-channel vectors arrive reshaped to one row
  `[1, 4096]` and are whole at every point, as are the two group matrices.
-/
import proofs.«100290_j62852551409980_1_alg».proof.Proof.GroupMatrix
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

/-! ## The index maps, over the grid -/

theorem idx0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem idx1 : ∀ t : Fin cfg0.N, win0_1.index t 0 = 0 ∧ win0_1.index t 1 = t.val % 8 :=
  (by decide +kernel : ∀ t : Fin grid0.N, win0_1.index t 0 = 0 ∧ win0_1.index t 1 = t.val % 8)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = t.val / 8 ∧ win0_8.index t 1 = 0 :=
  (by decide +kernel : ∀ t : Fin grid0.N, win0_8.index t 0 = t.val / 8 ∧ win0_8.index t 1 = 0)

variable (m : (ℓ : Loc nD τ sig) → Buf (Elt Ideal) ℓ)

/-! ## The arrays the region finds -/

/-- The bf16 copy of `x` holds the same extended reals. -/
theorem V_v0 (c : Dev nD) (i : S16384x4096.Idx) : V m c main_v0 i = m ((c : Thread nD τ).loc main_arg0) i := by
  dsimp only [V]
  simp only [hostOps0, hostOps0_1, hostOps0_2, List.flatten_cons, List.flatten_nil, List.append_nil, List.cons_append, List.nil_append]
  after_results
  rfl

/-- The bf16 copy of `w` holds the same extended reals. -/
theorem V_v1 (c : Dev nD) (i : S4096x4096.Idx) : V m c main_v1 i = m ((c : Thread nD τ).loc main_arg1) i := by
  dsimp only [V]
  simp only [hostOps0, hostOps0_1, hostOps0_2, List.flatten_cons, List.flatten_nil, List.append_nil, List.cons_append, List.nil_append]
  after_results
  rfl

theorem V_v2 (c : Dev nD) : V m c main_v2 = shapeCast S1x4096 (m ((c : Thread nD τ).loc main_arg2)) Facts₀.shapeCasts_S4096_S1x4096 := by
  dsimp only [V]
  simp only [hostOps0, hostOps0_1, hostOps0_2, List.flatten_cons, List.flatten_nil, List.append_nil, List.cons_append, List.nil_append]
  after_results
  rfl

theorem V_v3 (c : Dev nD) : V m c main_v3 = shapeCast S1x4096 (m ((c : Thread nD τ).loc main_arg3)) Facts₀.shapeCasts_S4096_S1x4096 := by
  dsimp only [V]
  simp only [hostOps0, hostOps0_1, hostOps0_2, List.flatten_cons, List.flatten_nil, List.append_nil, List.cons_append, List.nil_append]
  after_results
  rfl

theorem V_v4 (c : Dev nD) : V m c main_v4 = shapeCast S1x4096 (m ((c : Thread nD τ).loc main_arg4)) Facts₀.shapeCasts_S4096_S1x4096 := by
  dsimp only [V]
  simp only [hostOps0, hostOps0_1, hostOps0_2, List.flatten_cons, List.flatten_nil, List.append_nil, List.cons_append, List.nil_append]
  after_results
  rfl

theorem V_v5 (c : Dev nD) : V m c main_v5 = shapeCast S1x4096 (m ((c : Thread nD τ).loc main_arg5)) Facts₀.shapeCasts_S4096_S1x4096 := by
  dsimp only [V]
  simp only [hostOps0, hostOps0_1, hostOps0_2, List.flatten_cons, List.flatten_nil, List.append_nil, List.cons_append, List.nil_append]
  after_results
  rfl

/-! ## The blocks -/

/-- The x block at point `t`: rows from `256·(t/8)`, columns from `512·(t%8)`. -/
theorem x_blk (c : Dev nD) (t : Fin cfg0.N) (r : Fin 256) (k : Fin 512) (R : Fin 16384) (K : Fin 4096)
    (hR : R.val = 256 * (t.val / 8) + r.val) (hK : K.val = 512 * (t.val % 8) + k.val) :
    (iblk m c 0 t : Vec Ideal S256x512 .bf16) (ix2 r k) = m ((c : Thread nD τ).loc main_arg0) (ix2 R K) := by
  unfold iblk
  rw [View.read_apply]
  show V m c main_v0 _ = _
  rw [V_v0]
  congr 1
  funext a
  apply Fin.ext
  match a with
  | ⟨0, _⟩ => show win0_0.index t 0 * 256 + 1 * r.val = R.val; rw [(idx0 t).1]; omega
  | ⟨1, _⟩ => show win0_0.index t 1 * 512 + 1 * k.val = K.val; rw [(idx0 t).2]; omega

/-- The w block at point `t`: every row, columns from `512·(t%8)`. -/
theorem w_blk (c : Dev nD) (t : Fin cfg0.N) (n : Fin 4096) (k : Fin 512) (K : Fin 4096)
    (hK : K.val = 512 * (t.val % 8) + k.val) :
    (iblk m c 1 t : Vec Ideal S4096x512 .bf16) (ix2 n k) = m ((c : Thread nD τ).loc main_arg1) (ix2 n K) := by
  unfold iblk
  rw [View.read_apply]
  show V m c main_v1 _ = _
  rw [V_v1]
  congr 1
  funext a
  apply Fin.ext
  match a with
  | ⟨0, _⟩ => show win0_1.index t 0 * 4096 + 1 * n.val = n.val; rw [(idx1 t).1]; omega
  | ⟨1, _⟩ => show win0_1.index t 1 * 512 + 1 * k.val = K.val; rw [(idx1 t).2]; omega

/-- The bias row at any point is the bias vector. -/
theorem bias_blk (c : Dev nD) (t : Fin cfg0.N) (n : Fin 4096) :
    (iblk m c 2 t : Vec Ideal S1x4096 .f32) (ix2 (0 : Fin 1) n) = m ((c : Thread nD τ).loc main_arg2) (ix1 n) := by
  unfold iblk
  rw [View.read_apply]
  show V m c main_v2 _ = _
  rw [V_v2]
  refine Eq.trans (congrArg _ ?_) (shapeCast_a_1a_apply _ _ (0 : Fin 1) n)
  funext a
  apply Fin.ext
  match a with
  | ⟨0, _⟩ => show win0_2.index t 0 * 1 + 1 * 0 = 0; rw [(idx2 t).1]
  | ⟨1, _⟩ => show win0_2.index t 1 * 4096 + 1 * n.val = n.val; rw [(idx2 t).2]; omega

/-- The per-channel multiplier's row. -/
theorem mulw_blk (c : Dev nD) (t : Fin cfg0.N) (n : Fin 4096) :
    (iblk m c 3 t : Vec Ideal S1x4096 .f32) (ix2 (0 : Fin 1) n) = m ((c : Thread nD τ).loc main_arg3) (ix1 n) := by
  unfold iblk
  rw [View.read_apply]
  show V m c main_v3 _ = _
  rw [V_v3]
  refine Eq.trans (congrArg _ ?_) (shapeCast_a_1a_apply _ _ (0 : Fin 1) n)
  funext a
  apply Fin.ext
  match a with
  | ⟨0, _⟩ => show win0_3.index t 0 * 1 + 1 * 0 = 0; rw [(idx3 t).1]
  | ⟨1, _⟩ => show win0_3.index t 1 * 4096 + 1 * n.val = n.val; rw [(idx3 t).2]; omega

/-- The scale's row. -/
theorem gnw_blk (c : Dev nD) (t : Fin cfg0.N) (n : Fin 4096) :
    (iblk m c 4 t : Vec Ideal S1x4096 .f32) (ix2 (0 : Fin 1) n) = m ((c : Thread nD τ).loc main_arg4) (ix1 n) := by
  unfold iblk
  rw [View.read_apply]
  show V m c main_v4 _ = _
  rw [V_v4]
  refine Eq.trans (congrArg _ ?_) (shapeCast_a_1a_apply _ _ (0 : Fin 1) n)
  funext a
  apply Fin.ext
  match a with
  | ⟨0, _⟩ => show win0_4.index t 0 * 1 + 1 * 0 = 0; rw [(idx4 t).1]
  | ⟨1, _⟩ => show win0_4.index t 1 * 4096 + 1 * n.val = n.val; rw [(idx4 t).2]; omega

/-- The shift's row. -/
theorem gnb_blk (c : Dev nD) (t : Fin cfg0.N) (n : Fin 4096) :
    (iblk m c 5 t : Vec Ideal S1x4096 .f32) (ix2 (0 : Fin 1) n) = m ((c : Thread nD τ).loc main_arg5) (ix1 n) := by
  unfold iblk
  rw [View.read_apply]
  show V m c main_v5 _ = _
  rw [V_v5]
  refine Eq.trans (congrArg _ ?_) (shapeCast_a_1a_apply _ _ (0 : Fin 1) n)
  funext a
  apply Fin.ext
  match a with
  | ⟨0, _⟩ => show win0_5.index t 0 * 1 + 1 * 0 = 0; rw [(idx5 t).1]
  | ⟨1, _⟩ => show win0_5.index t 1 * 4096 + 1 * n.val = n.val; rw [(idx5 t).2]; omega

/-- The group matrix, whole at every point. -/
theorem g_blk (c : Dev nD) (t : Fin cfg0.N) (n : Fin 4096) (g : Fin 256) :
    (iblk m c 6 t : Vec Ideal S4096x256 .bf16) (ix2 n g) = if n.val / 16 = g.val then (1 : EReal) else 0 := by
  unfold iblk
  rw [View.read_apply]
  show V m c main_v14 _ = _
  refine Eq.trans (congrArg _ ?_) (GroupMatrix.G_apply m c n g)
  funext a
  apply Fin.ext
  match a with
  | ⟨0, _⟩ => show win0_6.index t 0 * 4096 + 1 * n.val = n.val; rw [(idx6 t).1]; omega
  | ⟨1, _⟩ => show win0_6.index t 1 * 256 + 1 * g.val = g.val; rw [(idx6 t).2]; omega

/-- The transposed group matrix, whole at every point. -/
theorem gt_blk (c : Dev nD) (t : Fin cfg0.N) (g : Fin 256) (n : Fin 4096) :
    (iblk m c 7 t : Vec Ideal S256x4096 .bf16) (ix2 g n) = if n.val / 16 = g.val then (1 : EReal) else 0 := by
  unfold iblk
  rw [View.read_apply]
  show V m c main_v15 _ = _
  refine Eq.trans (congrArg _ ?_) (GroupMatrix.GT_apply m c g n)
  funext a
  apply Fin.ext
  match a with
  | ⟨0, _⟩ => show win0_7.index t 0 * 256 + 1 * g.val = g.val; rw [(idx7 t).1]; omega
  | ⟨1, _⟩ => show win0_7.index t 1 * 4096 + 1 * n.val = n.val; rw [(idx7 t).2]; omega

end Cert.KernelIdeal.Blocks
end
-- ==== Proof.LibDotRowsT.lean ====
/-
  A matrix product against a transposed right operand, read at an index.  For shapes
  [R, K] · [J, K] → [R, J] whose dimension numbers contract axis 1 of the left operand with axis 1 of the
  right operand (no batch axis), the sum over the contraction index that `tpu.matmul` and `dot_general`
  denote at the ideal values is the textbook sum over `k : Fin K` of `lhs (r, k) * rhs (c, k)`.  The four
  coordinate facts about the dimension numbers' operand indices are hypotheses: for a record with literal
  lists each of them is a two-line unfolding.
-/
import Idealize.ShloMosaic.PureOps.Ideal.Laws
import Idealize.ShloMosaic.Lib.ValueIdx

noncomputable section

open scoped BigOperators

namespace Idealize.ShloMosaic.ValueIdx

open Idealize.ShloMosaic

/-- The contraction sum of an [R, K] · [J, K] product (both operands contracted on axis 1) at output index `j`
    is the sum over `k : Fin K` of the left operand at `(j 0, k)` and the right operand at `(j 1, k)`. -/
theorem dot_rowsT_sum {M : Type*} [AddCommMonoid M] {R K J : Nat}
    (d : DotDims ⟨2, ![R, K]⟩ ⟨2, ![J, K]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (g : (⟨2, ![R, K]⟩ : Shape).Idx → (⟨2, ![J, K]⟩ : Shape).Idx → M) (j : (⟨2, ![R, J]⟩ : Shape).Idx) :
    ∑ k : d.contr.Idx, g (d.lhsIdx j k) (d.rhsIdx j k) = ∑ k : Fin K, g (ix2 (j 0) k) (ix2 (j 1) k) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 (j 1) k := by
    funext a
    match a with
    | ⟨0, _⟩ => exact Fin.ext (h3 j _)
    | ⟨1, _⟩ => exact Fin.ext ((h4 j _).trans (contrEquiv1_symm_val d K hr hs k))
  exact congrArg₂ g e1 e2

/-- A `tpu.matmul` of [R, K] against [J, K] into the zero accumulator, at the ideal values, read at `(r, c)`. -/
theorem matmul_zero_rowsT {R K J : Nat} {φ₁ φ₂ : FTy}
    (d : DotDims ⟨2, ![R, K]⟩ ⟨2, ![J, K]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (lhs : FVec Ideal ⟨2, ![R, K]⟩ φ₁) (rhs : FVec Ideal ⟨2, ![J, K]⟩ φ₂) (r : Fin R) (c : Fin J) :
    FloatOps.matmul d prec lhs rhs (constant ⟨2, ![R, J]⟩ .f32 0x00000000#32) (ix2 r c)
      = ∑ k : Fin K, lhs (ix2 r k) * rhs (ix2 c k) := by
  rw [Ideal.matmul_constant_zero_apply]
  exact dot_rowsT_sum d hr hs h1 h2 h3 h4 (fun a b => lhs a * rhs b) (ix2 r c)

end Idealize.ShloMosaic.ValueIdx

end
-- ==== Proof.Spec.lean ====
/-
  The function both programs compute, entry by entry, on the extended reals.

  For a row `r` and a channel `n`: the linear layer's entry is the sum over `k` of `x (r, k) · w (n, k)` plus the
  bias at `n`.  The 4096 channels fall into 256 groups of 16 consecutive channels.  Within the group of `n` the
  entry is normalized: the group's mean (the sum of its 16 entries divided by 16) is subtracted, and the difference
  is divided by the square root of the group's variance (the mean of the squared differences) plus a small
  constant.  The normalized entry is scaled and shifted per channel, passed through `v ↦ v · logistic v`, multiplied
  by a per-channel factor, and passed through `v ↦ v · logistic v` again.  Float literals are kept as the words the
  programs print.
-/
import Idealize.ShloMosaic.PureOps.Ideal.Laws
import Idealize.ShloMosaic.Lib.ValueIdx

noncomputable section

open scoped BigOperators

namespace Cert.Spec

open Idealize.ShloMosaic Idealize.ShloMosaic.ValueIdx

/-- Channel `j` of group `g`. -/
abbrev member (g : Fin 256) (j : Fin 16) : Fin 4096 := ⟨16 * g.val + j.val, by have := g.isLt; have := j.isLt; omega⟩

/-- The group of channel `n`. -/
abbrev groupOf (n : Fin 4096) : Fin 256 := ⟨n.val / 16, by have := n.isLt; omega⟩

/-- The contraction of row `r` of `x` with row `n` of `w` over the 4096 columns. -/
def dot (x : (⟨2, ![16384, 4096]⟩ : Shape).Idx → EReal) (w : (⟨2, ![4096, 4096]⟩ : Shape).Idx → EReal)
    (r : Fin 16384) (n : Fin 4096) : EReal :=
  ∑ k : Fin 4096, x (ix2 r k) * w (ix2 n k)

/-- The linear layer's entry at row `r`, channel `n`. -/
def lin (x : (⟨2, ![16384, 4096]⟩ : Shape).Idx → EReal) (w : (⟨2, ![4096, 4096]⟩ : Shape).Idx → EReal)
    (b : (⟨1, ![4096]⟩ : Shape).Idx → EReal) (r : Fin 16384) (n : Fin 4096) : EReal :=
  (∑ k : Fin 4096, x (ix2 r k) * w (ix2 n k)) + b (ix1 n)

/-- The divisor 16 and the small constant, as the programs' words. -/
abbrev sixteen : EReal := Ideal.ofBits .f32 0x41800000#32
abbrev eps : EReal := Ideal.ofBits .f32 0x358637BD#32

/-- The mean of the group `g` of a row `y` of entries. -/
def mean (y : Fin 4096 → EReal) (g : Fin 256) : EReal := Ideal.div (∑ j : Fin 16, y (member g j)) sixteen

/-- The entry of channel `n` normalized within its group. -/
def normed (y : Fin 4096 → EReal) (n : Fin 4096) : EReal :=
  Ideal.div (y n - mean y (groupOf n))
    (Ideal.sqrt (Ideal.div (∑ j : Fin 16, (y (member (groupOf n) j) - mean y (groupOf n)) * (y (member (groupOf n) j) - mean y (groupOf n))) sixteen + eps))

/-- `v · logistic v`. -/
def swish (v : EReal) : EReal := v * Ideal.logistic v

/-- Everything after the normalization: scale, shift, swish, per-channel factor, swish. -/
def tail (yn gw gb mw : EReal) : EReal := swish (swish (yn * gw + gb) * mw)

/-- The result array, entry by entry. -/
def G (x : (⟨2, ![16384, 4096]⟩ : Shape).Idx → EReal) (w : (⟨2, ![4096, 4096]⟩ : Shape).Idx → EReal)
    (b mw gw gb : (⟨1, ![4096]⟩ : Shape).Idx → EReal) : (⟨2, ![16384, 4096]⟩ : Shape).Idx → EReal := fun i =>
  tail (normed (lin x w b (i 0)) (i 1)) (gw (ix1 (i 1))) (gb (ix1 (i 1))) (mw (ix1 (i 1)))

end Cert.Spec

end
-- ==== Proof.Accum.lean ====
import proofs.«100290_j62852551409980_1_alg».proof.Proof.Gen.KernelIdeal.Value
import proofs.«100290_j62852551409980_1_alg».proof.Proof.CaseValues
import proofs.«100290_j62852551409980_1_alg».proof.Proof.Blocks
import proofs.«100290_j62852551409980_1_alg».proof.Proof.LibDotRowsT
import proofs.«100290_j62852551409980_1_alg».proof.Proof.Spec

/-!
# The finished accumulator of a row block is the full contraction

A row block is eight consecutive grid points (steps 0 … 7); step `s` holds columns `512 s … 512 s + 511` of a
256-row block of `x` and of all 4096 rows of `w`.  Step 0 stores zero plus its product, each later step adds its
product to what the step before left.  At an entry `(r, n)` a step's product is the sum over its 512 columns of
`x (R, 512 s + kk) · w (n, 512 s + kk)`, so after the eighth product the entry holds the sum over all eight blocks
of 512 columns, which is the sum over the 4096 columns.  Only commutativity and associativity of the extended
reals' addition are used.
-/

noncomputable section

namespace Cert.KernelIdeal.Accum

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ### The contraction record of the step's product: its operand indices, coordinate by coordinate -/

theorem dot_lhs0 (i : S256x4096.Idx) (q : dot_S256x512_S4096x512_S256x4096_1_1_0_0_n_n.contr.Idx) :
    (dot_S256x512_S4096x512_S256x4096_1_1_0_0_n_n.lhsIdx i q 0).val = (i 0).val := by
  unfold DotDims.lhsIdx
  rw [dif_neg (show ¬(0 : Fin S256x512.rank) ∈ dot_S256x512_S4096x512_S256x4096_1_1_0_0_n_n.lhsBatch by decide), dif_pos (show (0 : Fin S256x512.rank) ∈ dot_S256x512_S4096x512_S256x4096_1_1_0_0_n_n.lhsNonContracting by decide)]
  rfl
theorem dot_lhs1 (i : S256x4096.Idx) (q : dot_S256x512_S4096x512_S256x4096_1_1_0_0_n_n.contr.Idx) :
    (dot_S256x512_S4096x512_S256x4096_1_1_0_0_n_n.lhsIdx i q 1).val = (q ⟨0, by decide⟩).val :=
  dot_S256x512_S4096x512_S256x4096_1_1_0_0_n_n.lhsIdx_val_of_single rfl i q
theorem dot_rhs0 (i : S256x4096.Idx) (q : dot_S256x512_S4096x512_S256x4096_1_1_0_0_n_n.contr.Idx) :
    (dot_S256x512_S4096x512_S256x4096_1_1_0_0_n_n.rhsIdx i q 0).val = (i 1).val := by
  unfold DotDims.rhsIdx
  rw [dif_neg (show ¬(0 : Fin S4096x512.rank) ∈ dot_S256x512_S4096x512_S256x4096_1_1_0_0_n_n.rhsBatch by decide), dif_pos (show (0 : Fin S4096x512.rank) ∈ dot_S256x512_S4096x512_S256x4096_1_1_0_0_n_n.rhsNonContracting by decide)]
  rfl
theorem dot_rhs1 (i : S256x4096.Idx) (q : dot_S256x512_S4096x512_S256x4096_1_1_0_0_n_n.contr.Idx) :
    (dot_S256x512_S4096x512_S256x4096_1_1_0_0_n_n.rhsIdx i q 1).val = (q ⟨0, by decide⟩).val :=
  dot_S256x512_S4096x512_S256x4096_1_1_0_0_n_n.rhsIdx_val_of_single rfl i q

/-- one step's payload at an entry: what was there plus the contraction over the step's 512 columns -/
theorem pay2_apply (x0 : FVec Ideal S256x512 .bf16) (x1 : FVec Ideal S4096x512 .bf16) (acc : FVec Ideal S256x4096 .f32) (r : Fin 256) (n : Fin 4096) :
    k0_pay2 (F := Ideal) x0 x1 acc (ix2 r n) = acc (ix2 r n) + ∑ kk : Fin 512, x0 (ix2 r kk) * x1 (ix2 n kk) := by
  unfold k0_pay2
  simp only [shapeCast_self]
  refine (congrArg (acc (ix2 r n) + ·) ?_)
  exact matmul_zero_rowsT dot_S256x512_S4096x512_S256x4096_1_1_0_0_n_n none rfl rfl dot_lhs0 dot_lhs1 dot_rhs0 dot_rhs1 x0 x1 r n

/-! ### Two general facts -/

/-- a sum over `b * a` consecutive naturals, cut into `a` blocks of `b`: the sum over the blocks of the sums within
    each block is the whole sum (in any additive commutative monoid) -/
theorem sum_blocks {M : Type*} [AddCommMonoid M] (F : ℕ → M) (a b : ℕ) :
    ∑ s ∈ Finset.range a, ∑ kk ∈ Finset.range b, F (b * s + kk) = ∑ k ∈ Finset.range (b * a), F k := by
  induction a with
  | zero => simp
  | succ a ih => rw [Finset.sum_range_succ, ih, Nat.mul_succ, Finset.sum_range_add]

/-- the fold over a run depends on the run's first point and length only, not on how they are written -/
theorem accAt_congr {α : Type*} {N : ℕ} (a : (n : ℕ) → n < N → α) (g : (n : ℕ) → n < N → α → α)
    {b j b' j' : ℕ} (h : b + j < N) (h' : b' + j' < N) (hb : b = b') (hj : j = j') :
    Pipeline.accAt a g b j h = Pipeline.accAt a g b' j' h' := by
  subst hb; subst hj; rfl

/-! ### The accumulator after each step of a row block -/

/-- the contraction, over 512 columns, of row `i 0` of an x block with row `i 1` of a w block -/
def contr512 (x0 : FVec Ideal S256x512 .bf16) (x1 : FVec Ideal S4096x512 .bf16) (i : S256x4096.Idx) : EReal :=
  ∑ kk : Fin 512, x0 (ix2 (i 0) kk) * x1 (ix2 (i 1) kk)

/-- the addend of grid point `p` at entry `i`: the contraction of the point's x block with its w block there (zero
    past the grid, where it is never used) -/
def addend (c : Dev nD) (p : ℕ) (i : S256x4096.Idx) : EReal :=
  if h : p < cfg0.N then contr512 (iblk m c 0 ⟨p, h⟩) (iblk m c 1 ⟨p, h⟩) i else 0

/-- the addend at a point of the grid, at entry (r, n) -/
theorem addend_of_eq (c : Dev nD) (t : Fin cfg0.N) (p : ℕ) (hp : p = t.val) (r : Fin 256) (n : Fin 4096) :
    addend m c p (ix2 r n) = contr512 (iblk m c 0 t) (iblk m c 1 t) (ix2 r n) := by
  subst hp
  unfold addend
  rw [dif_pos t.isLt]

/-- the first step of a row block leaves zero plus its addend -/
theorem reset_at (c : Dev nD) (b : ℕ) (hb8 : b % 8 = 0) (h : b < cfg0.N) (i : S256x4096.Idx) :
    Value.scAt0_0 m c b h (VS0_0.read (Elt Ideal) VS0_0.junk) i = 0 + addend m c b i := by
  obtain ⟨r, n, rfl⟩ : ∃ (r : Fin 256) (n : Fin 4096), i = ix2 r n := ⟨i 0, i 1, eq_ix2 i⟩
  have h7 : ¬ b % 8 = 7 := by omega
  unfold Value.scAt0_0
  rw [dif_pos hb8, dif_neg h7, CaseValues.scratch_A]
  refine (pay2_apply _ _ _ r n).trans ?_
  rw [addend_of_eq m c ⟨b, h⟩ b rfl r n]
  refine congrArg₂ (fun u v : EReal => u + v) ?_ rfl
  unfold k0_pay1
  simp only [shapeCast_self]
  exact Ideal.ofBits_zero_f32

/-- a middle step adds its addend to what the step before left -/
theorem step_at (c : Dev nD) (p : ℕ) (h0 : ¬ p % 8 = 0) (h7 : ¬ p % 8 = 7) (h : p < cfg0.N) (acc : Vec Ideal S256x4096 .f32)
    (i : S256x4096.Idx) :
    Value.scAt0_0 m c p h acc i = acc i + addend m c p i := by
  obtain ⟨r, n, rfl⟩ : ∃ (r : Fin 256) (n : Fin 4096), i = ix2 r n := ⟨i 0, i 1, eq_ix2 i⟩
  unfold Value.scAt0_0
  rw [dif_neg h0, dif_neg h7, CaseValues.scratch_B]
  refine (pay2_apply _ _ _ r n).trans ?_
  rw [addend_of_eq m c ⟨p, h⟩ p rfl r n]
  rfl

/-- after step 6 of row block `q` the accumulator holds the sum of the addends of steps 0 … 6 -/
theorem fold_at (c : Dev nD) (q : ℕ) (h : 8 * q + 6 < cfg0.N) (i : S256x4096.Idx) :
    Pipeline.accAt (fun n h => Value.scAt0_0 m c n h (VS0_0.read (Elt Ideal) VS0_0.junk)) (Value.scAt0_0 m c) (8 * q) 6 h i
      = 0 + ∑ s ∈ Finset.range 7, addend m c (8 * q + s) i :=
  Pipeline.accAt_add_apply (fun n h => Value.scAt0_0 m c n h (VS0_0.read (Elt Ideal) VS0_0.junk)) (Value.scAt0_0 m c)
    (fun _ => 0) (addend m c) (8 * q) 6
    (fun h i => reset_at m c (8 * q) (Nat.mul_mod_right 8 q) h i)
    (fun p h acc i hlt hle => step_at m c p (by omega) (by omega) h acc i) 6 le_rfl h i

/-! ### A step's addend in terms of the arguments, and the finished accumulator -/

/-- column `k` of the full contraction of row `R` of x with row `n` of w (zero past the 4096 columns) -/
def colTerm (x : (⟨2, ![16384, 4096]⟩ : Shape).Idx → EReal) (w : (⟨2, ![4096, 4096]⟩ : Shape).Idx → EReal)
    (R : Fin 16384) (n : Fin 4096) (k : ℕ) : EReal :=
  if h : k < 4096 then x (ix2 R ⟨k, h⟩) * w (ix2 n ⟨k, h⟩) else 0

/-- step `s` of row block `q` contracts columns 512 s … 512 s + 511 -/
theorem addend_eq (c : Dev nD) (q s : ℕ) (hs : s < 8) (h : 8 * q + s < cfg0.N) (r : Fin 256) (n : Fin 4096) (R : Fin 16384)
    (hR : R.val = 256 * q + r.val)
    (x : (⟨2, ![16384, 4096]⟩ : Shape).Idx → EReal) (w : (⟨2, ![4096, 4096]⟩ : Shape).Idx → EReal)
    (hx : x = m ((c : Thread nD τ).loc main_arg0)) (hw : w = m ((c : Thread nD τ).loc main_arg1)) :
    addend m c (8 * q + s) (ix2 r n) = ∑ kk ∈ Finset.range 512, colTerm x w R n (512 * s + kk) := by
  subst hx; subst hw
  rw [addend_of_eq m c ⟨8 * q + s, h⟩ (8 * q + s) rfl r n, Finset.sum_range]
  refine Finset.sum_congr rfl fun kk _ => ?_
  have hk : 512 * s + kk.val < 4096 := by have := kk.isLt; omega
  unfold colTerm
  rw [dif_pos hk]
  exact congrArg₂ (fun u v : EReal => u * v)
    (Blocks.x_blk m c ⟨8 * q + s, h⟩ r kk R ⟨512 * s + kk.val, hk⟩
      (by show R.val = 256 * ((8 * q + s) / 8) + r.val; omega)
      (by show 512 * s + kk.val = 512 * ((8 * q + s) % 8) + kk.val; omega))
    (Blocks.w_blk m c ⟨8 * q + s, h⟩ n kk ⟨512 * s + kk.val, hk⟩
      (by show 512 * s + kk.val = 512 * ((8 * q + s) % 8) + kk.val; omega))

/-- the finished accumulator, with the two arguments named: at the last step t (t % 8 = 7) of a row block, the last
    step's payload over what step 6 left is, at (r, n), the contraction over all 4096 columns of row 256·(t/8) + r of
    x with row n of w -/
theorem finished_of (c : Dev nD) (t : Fin cfg0.N) (h7 : t.val % 8 = 7) (r : Fin 256) (n : Fin 4096) (R : Fin 16384) (hR : R.val = 256 * (t.val / 8) + r.val)
    (x : (⟨2, ![16384, 4096]⟩ : Shape).Idx → EReal) (w : (⟨2, ![4096, 4096]⟩ : Shape).Idx → EReal)
    (hx : x = m ((c : Thread nD τ).loc main_arg0)) (hw : w = m ((c : Thread nD τ).loc main_arg1)) :
    k0_pay2 (F := Ideal) (iblk m c 0 t) (iblk m c 1 t) (outsAt0 m c (t.val - 1) (Nat.lt_of_le_of_lt (Nat.sub_le _ _) t.isLt)).2 (ix2 r n)
      = ∑ k : Fin 4096, x (ix2 R k) * w (ix2 n k) := by
  have ht := t.isLt
  have htq : 8 * (t.val / 8) + 7 = t.val := by omega
  have h6 : 8 * (t.val / 8) + 6 < cfg0.N := by omega
  -- the last step's payload: what step 6 left, plus the last step's addend
  refine (pay2_apply _ _ _ r n).trans ?_
  show (outsAt0 m c (t.val - 1) (Nat.lt_of_le_of_lt (Nat.sub_le _ _) t.isLt)).2 (ix2 r n)
      + contr512 (iblk m c 0 t) (iblk m c 1 t) (ix2 r n) = _
  -- what step 6 left is the fold over steps 0 … 6 of the row block
  have hprev : (outsAt0 m c (t.val - 1) (Nat.lt_of_le_of_lt (Nat.sub_le _ _) t.isLt)).2
      = Pipeline.accAt (fun n h => Value.scAt0_0 m c n h (VS0_0.read (Elt Ideal) VS0_0.junk)) (Value.scAt0_0 m c)
          (8 * (t.val / 8)) 6 h6 :=
    (Value.soutsAt0_0_eq m c ⟨t.val - 1, Nat.lt_of_le_of_lt (Nat.sub_le _ _) t.isLt⟩).trans
      (accAt_congr _ _ _ _ (by show 8 * ((t.val - 1) / 8) = 8 * (t.val / 8); omega) (by show (t.val - 1) % 8 = 6; omega))
  rw [hprev, fold_at, zero_add, ← addend_of_eq m c t (8 * (t.val / 8) + 7) htq r n,
    ← Finset.sum_range_succ (fun s => addend m c (8 * (t.val / 8) + s) (ix2 r n)) 7]
  -- each step contracts its own 512 columns; the eight blocks make up the 4096 columns
  rw [Finset.sum_congr rfl (fun s hs => addend_eq m c (t.val / 8) s (Finset.mem_range.mp hs) (by have := Finset.mem_range.mp hs; omega) r n R hR x w hx hw),
    sum_blocks (colTerm x w R n) 8 512, Finset.sum_range]
  refine Finset.sum_congr rfl fun k _ => ?_
  unfold colTerm
  rw [dif_pos k.isLt]

/-- at the last step t (t % 8 = 7) of a row block, the accumulator the epilogue reads — the last step's payload over what step 6 left — is, at (r, n), the contraction over all 4096 columns of row 256·(t/8) + r of x with row n of w -/
theorem finished (c : Dev nD) (t : Fin cfg0.N) (h7 : t.val % 8 = 7) (r : Fin 256) (n : Fin 4096) (R : Fin 16384) (hR : R.val = 256 * (t.val / 8) + r.val) :
    k0_pay2 (F := Ideal) (iblk m c 0 t) (iblk m c 1 t) (outsAt0 m c (t.val - 1) (Nat.lt_of_le_of_lt (Nat.sub_le _ _) t.isLt)).2 (ix2 r n)
      = Cert.Spec.dot (m ((c : Thread nD τ).loc main_arg0)) (m ((c : Thread nD τ).loc main_arg1)) R n := by
  unfold Cert.Spec.dot
  exact finished_of m c t h7 r n R hR _ _ rfl rfl

end Cert.KernelIdeal.Accum
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.GroupStat.lean ====
import Mathlib.Logic.Equiv.Fin.Basic
import Mathlib.Data.Fintype.BigOperators
import Mathlib.Algebra.BigOperators.Fin
import Mathlib.Tactic.Ring
import Mathlib.Tactic.Linarith
import Mathlib.Tactic.NormNum
import Mathlib.Tactic.Positivity
import Idealize.ShloMosaic.PureOps.Ideal.Laws
import Idealize.ShloMosaic.Lib.IdealHost

/-!
# Group statistics over sixteen channels, in the extended reals

Pure mathematics used to compare two spellings of a per-group normalization:
sums against 0/1 membership columns, the coercion of finite real sums, the
variance identity `E[y²] - (E y)² = E[(y - E y)²]`, and three bit patterns.
-/

noncomputable section

namespace Cert.GroupStat

open Idealize.ShloMosaic

/-- a finite sum of reals, coerced, is the sum of the coercions -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih =>
    rw [Finset.sum_insert ha, Finset.sum_insert ha, EReal.coe_add, ih]

/-- summing against the 0/1 membership column of group g keeps the 16 members of the group -/
theorem sum_mul_member (f : Fin 4096 → EReal) (g : Fin 256) :
    ∑ n : Fin 4096, f n * (if n.val / 16 = g.val then (1 : EReal) else 0)
      = ∑ j : Fin 16, f ⟨16 * g.val + j.val, by have := g.isLt; have := j.isLt; omega⟩ := by
  -- a channel index is a pair (group, position in the group): n = position + 16 * group
  rw [← Equiv.sum_comp (finProdFinEquiv : Fin 256 × Fin 16 ≃ Fin 4096), Fintype.sum_prod_type]
  have key : ∀ (a : Fin 256) (b : Fin 16),
      ((finProdFinEquiv : Fin 256 × Fin 16 ≃ Fin 4096) (a, b)).val / 16 = a.val := by
    intro a b
    have hb := b.isLt
    simp only [finProdFinEquiv_apply_val]
    omega
  simp only [key]
  -- only the group g contributes
  rw [Finset.sum_eq_single g]
  · simp only [if_true, mul_one]
    refine Finset.sum_congr rfl (fun j _ => ?_)
    congr 1
    apply Fin.ext
    simp only [finProdFinEquiv_apply_val]
    omega
  · intro a _ hne
    have hv : a.val ≠ g.val := fun h => hne (Fin.ext h)
    simp only [if_neg hv, mul_zero, Finset.sum_const_zero]
  · intro h
    exact absurd (Finset.mem_univ g) h

/-- summing a per-group value against the membership row of channel n reads the value of n's group -/
theorem sum_mul_pick (a : Fin 256 → EReal) (n : Fin 4096) :
    ∑ g : Fin 256, a g * (if n.val / 16 = g.val then (1 : EReal) else 0)
      = a ⟨n.val / 16, by have := n.isLt; omega⟩ := by
  rw [Finset.sum_eq_single (⟨n.val / 16, by have := n.isLt; omega⟩ : Fin 256)]
  · simp only [if_true, mul_one]
  · intro b _ hne
    have hv : ¬ (n.val / 16 = b.val) := fun h => hne (Fin.ext h.symm)
    simp only [if_neg hv, mul_zero]
  · intro h
    exact absurd (Finset.mem_univ _) h

/-- the two spellings of a group's normalized entry agree on finite entries: (y - mean)·rsqrt(E[y²] - mean² + ε) with mean = Σ·(1/16), against (y - mean)/sqrt(E[(y - mean)²] + ε) with the means as quotients by 16 -/
theorem normalized_eq (y : Fin 16 → ℝ) (ε : ℝ) (hε : 0 < ε) (j0 : Fin 16) :
    ((y j0 : EReal) - (∑ j, (y j : EReal)) * ((1 / 16 : ℝ) : EReal))
        * Ideal.rsqrt ((∑ j, (y j : EReal) * (y j : EReal)) * ((1 / 16 : ℝ) : EReal)
            - ((∑ j, (y j : EReal)) * ((1 / 16 : ℝ) : EReal)) * ((∑ j, (y j : EReal)) * ((1 / 16 : ℝ) : EReal)) + (ε : EReal))
      = Ideal.div ((y j0 : EReal) - Ideal.div (∑ j, (y j : EReal)) ((16 : ℝ) : EReal))
          (Ideal.sqrt (Ideal.div (∑ j, ((y j : EReal) - Ideal.div (∑ j, (y j : EReal)) ((16 : ℝ) : EReal)) * ((y j : EReal) - Ideal.div (∑ j, (y j : EReal)) ((16 : ℝ) : EReal))) ((16 : ℝ) : EReal) + (ε : EReal))) := by
  have h16 : (16 : ℝ) ≠ 0 := by norm_num
  -- every extended-real sum here is the coercion of a real sum
  have hS : (∑ j, (y j : EReal)) = ((∑ j, y j : ℝ) : EReal) := (coe_sum _ _).symm
  have hQ : (∑ j, (y j : EReal) * (y j : EReal)) = ((∑ j, y j * y j : ℝ) : EReal) := by
    rw [coe_sum]; simp only [EReal.coe_mul]
  have hV : (∑ j, ((y j : EReal) - ((∑ j, y j : ℝ) : EReal) * ((1 / 16 : ℝ) : EReal))
        * ((y j : EReal) - ((∑ j, y j : ℝ) : EReal) * ((1 / 16 : ℝ) : EReal)))
      = ((∑ j, (y j - (∑ j, y j) * (1 / 16)) * (y j - (∑ j, y j) * (1 / 16)) : ℝ) : EReal) := by
    simp only [coe_sum, EReal.coe_mul, EReal.coe_sub]
  -- quotients by 16 are products with 1/16
  simp only [Ideal.div_coe h16, hS, hQ, hV]
  simp only [← EReal.coe_mul, ← EReal.coe_sub, ← EReal.coe_add]
  -- the variance identity: the mean of squares minus the squared mean is the mean of the
  -- squared deviations (expand the square and use Σ 1 = 16)
  have hvar : (∑ j, y j * y j) * (1 / 16) - ((∑ j, y j) * (1 / 16)) * ((∑ j, y j) * (1 / 16))
      = (∑ j, (y j - (∑ j, y j) * (1 / 16)) * (y j - (∑ j, y j) * (1 / 16))) * (1 / 16) := by
    have hexp : ∀ m : ℝ, (∑ j, (y j - m) * (y j - m))
        = (∑ j, y j * y j) - 2 * m * (∑ j, y j) + 16 * (m * m) := by
      intro m
      have h1 : ∀ j, (y j - m) * (y j - m) = y j * y j - 2 * m * y j + m * m := fun j => by ring
      simp only [h1, Finset.sum_add_distrib, Finset.sum_sub_distrib, ← Finset.mul_sum,
        Finset.sum_const, Finset.card_univ, Fintype.card_fin, nsmul_eq_mul]
      push_cast
      ring
    rw [hexp]
    ring
  rw [hvar]
  -- the radicand is positive
  have hr : 0 < (∑ j, (y j - (∑ j, y j) * (1 / 16)) * (y j - (∑ j, y j) * (1 / 16))) * (1 / 16) + ε := by
    have hnn : 0 ≤ ∑ j, (y j - (∑ j, y j) * (1 / 16)) * (y j - (∑ j, y j) * (1 / 16)) :=
      Finset.sum_nonneg (fun j _ => mul_self_nonneg _)
    have : 0 ≤ (∑ j, (y j - (∑ j, y j) * (1 / 16)) * (y j - (∑ j, y j) * (1 / 16))) * (1 / 16) :=
      mul_nonneg hnn (by norm_num)
    linarith
  have hsq : Real.sqrt ((∑ j, (y j - (∑ j, y j) * (1 / 16)) * (y j - (∑ j, y j) * (1 / 16))) * (1 / 16) + ε) ≠ 0 :=
    (Real.sqrt_pos.mpr hr).ne'
  rw [Ideal.rsqrt_coe, Ideal.sqrt_coe, if_neg (not_lt.mpr hr.le), if_neg hr.ne', if_neg (not_lt.mpr hr.le),
    Ideal.div_coe hsq]
  simp only [one_div]

/-- bit patterns as reals -/
theorem ofBits_sixteen : Ideal.ofBits .f32 0x41800000#32 = ((16 : ℝ) : EReal) := by
  simp [Ideal.ofBits, Ideal.ieee, -EReal.coe_mul]; norm_num

theorem ofBits_sixteenth : Ideal.ofBits .f32 0x3D800000#32 = ((1 / 16 : ℝ) : EReal) := by
  simp [Ideal.ofBits, Ideal.ieee, -EReal.coe_mul]; norm_num

theorem ofBits_eps : ∃ ε : ℝ, 0 < ε ∧ Ideal.ofBits .f32 0x358637BD#32 = (ε : EReal) := by
  refine ⟨(8796093 : ℝ) * (2 : ℝ) ^ (-43 : ℤ), by positivity, ?_⟩
  simp [Ideal.ofBits, Ideal.ieee, -EReal.coe_mul]

end Cert.GroupStat
-- ==== Proof.Epilogue.lean ====
/-
  The last step's epilogue, read entry by entry on the extended reals.

  With `Y n = acc (r, n) + bias n` the finished linear layer's row, the kernel forms the per-group sums of `Y` and of
  `Y²` as products with the 0/1 group matrix, scales both by 1/16, takes `rsqrt (E[Y²] − mean² + ε)`, spreads mean and
  reciprocal deviation back over the channels by products with the transposed group matrix, and normalizes
  `(Y − mean) · rsqrt …`; then scale, shift, `v · logistic v`, the per-channel factor, `v · logistic v`.  A product with
  a column of the group matrix keeps the group's 16 members; a product with a row of its transpose reads the value
  of the channel's group.  On finite entries the kernel's normalized entry is the textbook one (difference from the
  mean over the root of the mean squared difference plus ε).
-/
import proofs.«100290_j62852551409980_1_alg».proof.Proof.Gen.KernelIdeal.Skeleton
import proofs.«100290_j62852551409980_1_alg».proof.Proof.LibDotRows
import proofs.«100290_j62852551409980_1_alg».proof.Proof.GroupStat
import proofs.«100290_j62852551409980_1_alg».proof.Proof.Spec
import Idealize.ShloMosaic.Lib.ValueLayout
import Idealize.ShloMosaic.Lib.IdealHost
import Idealize.ShloMosaic.Lib.Pipeline.Value

noncomputable section

open scoped BigOperators

namespace Cert.KernelIdeal.Epilogue

open Cert.KernelIdeal Cert.KernelIdeal.Gen Idealize.ShloMosaic Idealize.ShloMosaic.ValueIdx Cert.Spec

/-- The product of a [256, 4096] block with the [4096, 256] group matrix. -/
abbrev D2 := dot_S256x4096_S4096x256_S256x256_1_0_0_1_n_n
/-- The product of a [256, 256] block with the [256, 4096] transposed group matrix. -/
abbrev D3 := dot_S256x256_S256x4096_S256x4096_1_0_0_1_n_n

theorem d2_l0 (j : S256x256.Idx) (k : D2.contr.Idx) : (D2.lhsIdx j k 0).val = (j 0).val := by
  unfold DotDims.lhsIdx
  rw [dif_neg (show ¬(0 : Fin S256x4096.rank) ∈ D2.lhsBatch by decide), dif_pos (show (0 : Fin S256x4096.rank) ∈ D2.lhsNonContracting by decide)]
  rfl
theorem d2_l1 (j : S256x256.Idx) (k : D2.contr.Idx) : (D2.lhsIdx j k 1).val = (k ⟨0, by decide⟩).val :=
  D2.lhsIdx_val_of_single rfl j k
theorem d2_r0 (j : S256x256.Idx) (k : D2.contr.Idx) : (D2.rhsIdx j k 0).val = (k ⟨0, by decide⟩).val :=
  D2.rhsIdx_val_of_single rfl j k
theorem d2_r1 (j : S256x256.Idx) (k : D2.contr.Idx) : (D2.rhsIdx j k 1).val = (j 1).val := by
  unfold DotDims.rhsIdx
  rw [dif_neg (show ¬(1 : Fin S4096x256.rank) ∈ D2.rhsBatch by decide), dif_pos (show (1 : Fin S4096x256.rank) ∈ D2.rhsNonContracting by decide)]
  rfl

theorem d3_l0 (j : S256x4096.Idx) (k : D3.contr.Idx) : (D3.lhsIdx j k 0).val = (j 0).val := by
  unfold DotDims.lhsIdx
  rw [dif_neg (show ¬(0 : Fin S256x256.rank) ∈ D3.lhsBatch by decide), dif_pos (show (0 : Fin S256x256.rank) ∈ D3.lhsNonContracting by decide)]
  rfl
theorem d3_l1 (j : S256x4096.Idx) (k : D3.contr.Idx) : (D3.lhsIdx j k 1).val = (k ⟨0, by decide⟩).val :=
  D3.lhsIdx_val_of_single rfl j k
theorem d3_r0 (j : S256x4096.Idx) (k : D3.contr.Idx) : (D3.rhsIdx j k 0).val = (k ⟨0, by decide⟩).val :=
  D3.rhsIdx_val_of_single rfl j k
theorem d3_r1 (j : S256x4096.Idx) (k : D3.contr.Idx) : (D3.rhsIdx j k 1).val = (j 1).val := by
  unfold DotDims.rhsIdx
  rw [dif_neg (show ¬(1 : Fin S256x4096.rank) ∈ D3.rhsBatch by decide), dif_pos (show (1 : Fin S256x4096.rank) ∈ D3.rhsNonContracting by decide)]
  rfl

/-- A product with the group matrix at `(r, g)`: the sum of the row's 16 entries in group `g`. -/
theorem against_G (A : FVec Ideal S256x4096 .bf16) (G : FVec Ideal S4096x256 .bf16)
    (hG : ∀ (n : Fin 4096) (g : Fin 256), G (ix2 n g) = if n.val / 16 = g.val then (1 : EReal) else 0) (r : Fin 256) (g : Fin 256) :
    FloatOps.matmul D2 none A G (constant S256x256 .f32 0x00000000#32) (ix2 r g) = ∑ j : Fin 16, A (ix2 r (member g j)) := by
  rw [matmul_zero_rows D2 none rfl rfl d2_l0 d2_l1 d2_r0 d2_r1]
  simp only [hG]
  exact GroupStat.sum_mul_member (fun n => A (ix2 r n)) g

/-- A product with the transposed group matrix at `(r, n)`: the row's value at the group of `n`. -/
theorem against_GT (B : FVec Ideal S256x256 .bf16) (GT : FVec Ideal S256x4096 .bf16)
    (hGT : ∀ (g : Fin 256) (n : Fin 4096), GT (ix2 g n) = if n.val / 16 = g.val then (1 : EReal) else 0) (r : Fin 256) (n : Fin 4096) :
    FloatOps.matmul D3 none B GT (constant S256x4096 .f32 0x00000000#32) (ix2 r n) = B (ix2 r (groupOf n)) := by
  rw [matmul_zero_rows D3 none rfl rfl d3_l0 d3_l1 d3_r0 d3_r1]
  simp only [hGT]
  exact GroupStat.sum_mul_pick (fun g => B (ix2 r g)) n

/-- The scale 1/16 as the kernel's word. -/
abbrev c16 : EReal := Ideal.ofBits .f32 0x3D800000#32

/-- The kernel's spelling of the normalized entry of channel `n`: the mean as the group sum times 1/16, the variance as
    `E[Y²] − mean²`, the reciprocal root in place of the quotient. -/
def normedK (Y : Fin 4096 → EReal) (n : Fin 4096) : EReal :=
  (Y n - (∑ j : Fin 16, Y (member (groupOf n) j)) * c16)
    * Ideal.rsqrt ((∑ j : Fin 16, Y (member (groupOf n) j) * Y (member (groupOf n) j)) * c16
        - ((∑ j : Fin 16, Y (member (groupOf n) j)) * c16) * ((∑ j : Fin 16, Y (member (groupOf n) j)) * c16) + eps)

theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-- The first part of the epilogue at `(r, n)`. -/
theorem pay4_apply (y : FVec Ideal S256x4096 .f32) (bias : FVec Ideal S1x4096 .f32) (G : FVec Ideal S4096x256 .bf16)
    (GT : FVec Ideal S256x4096 .bf16) (gw gb : FVec Ideal S1x4096 .f32)
    (hG : ∀ (n : Fin 4096) (g : Fin 256), G (ix2 n g) = if n.val / 16 = g.val then (1 : EReal) else 0)
    (hGT : ∀ (g : Fin 256) (n : Fin 4096), GT (ix2 g n) = if n.val / 16 = g.val then (1 : EReal) else 0)
    (r : Fin 256) (n : Fin 4096) :
    k0_pay4 (F := Ideal) y bias G GT gw gb (ix2 r n)
      = swish (normedK (fun n' => y (ix2 r n') + bias (ix2 (0 : Fin 1) n')) n * gw (ix2 (0 : Fin 1) n) + gb (ix2 (0 : Fin 1) n)) := by
  unfold k0_pay4
  simp only [shapeCast_self]
  simp only [mulf_apply, addf_apply, subf_apply, logistic_apply, rsqrt_apply, truncf_apply, broadcast_apply,
    broadcastTo_1b_ab_apply, against_GT _ _ hGT, against_G _ _ hG]
  rfl

/-- The second part of the epilogue at `(r, n)`. -/
theorem pay3_apply (v : FVec Ideal S256x4096 .f32) (mw : FVec Ideal S1x4096 .f32) (r : Fin 256) (n : Fin 4096) :
    k0_pay3 (F := Ideal) v mw (ix2 r n) = swish (v (ix2 r n) * mw (ix2 (0 : Fin 1) n)) := by
  unfold k0_pay3
  simp only [shapeCast_self, mulf_apply, logistic_apply, broadcastTo_1b_ab_apply]
  rfl

/-- On a row of finite entries the kernel's normalized entry is the textbook one. -/
theorem normedK_eq (Y : Fin 4096 → EReal) (hY : ∀ n, ∃ y : ℝ, Y n = (y : EReal)) (n : Fin 4096) :
    normedK Y n = normed Y n := by
  choose y hy using hY
  obtain rfl : Y = fun n => (y n : EReal) := funext hy
  obtain ⟨ε, hε, hb⟩ := GroupStat.ofBits_eps
  have hn := n.isLt
  have hm : member (groupOf n) ⟨n.val % 16, Nat.mod_lt _ (by decide)⟩ = n := Fin.ext (by
    show 16 * (n.val / 16) + n.val % 16 = n.val
    omega)
  have key := GroupStat.normalized_eq (fun j => y (member (groupOf n) j)) ε hε ⟨n.val % 16, Nat.mod_lt _ (by decide)⟩
  simp only [hm] at key
  unfold normedK normed mean c16 sixteen eps
  rw [GroupStat.ofBits_sixteen, GroupStat.ofBits_sixteenth, hb]
  exact key

end Cert.KernelIdeal.Epilogue

end
-- ==== Proof.KernelValue.lean ====
/-
  The kernel's result array, as one function of its arguments.

  Only the last step of a row block writes the output block back.  What it writes, at local entry `(r, n)` of row
  block `q`, is the epilogue of the finished accumulator: the full contraction of row `256 q + r` of `x` with row `n`
  of `w`, plus the bias, normalized within the group of `n`, scaled, shifted and passed through the two swish
  stages — the specification's entry `(256 q + r, n)`, the kernel's spelling of the normalization being the textbook
  one because the linear layer's entries are finite.  The 64 row blocks cover the array.
-/
import proofs.«100290_j62852551409980_1_alg».proof.Proof.Gen.KernelIdeal.Value
import proofs.«100290_j62852551409980_1_alg».proof.Proof.CaseValues
import proofs.«100290_j62852551409980_1_alg».proof.Proof.Blocks
import proofs.«100290_j62852551409980_1_alg».proof.Proof.Accum
import proofs.«100290_j62852551409980_1_alg».proof.Proof.Epilogue
import proofs.«100290_j62852551409980_1_alg».proof.Proof.Spec
import proofs.«100290_j62852551409980_1_alg».proof.Proof.GroupStat

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Spec

variable (m : (ℓ : Loc nD τ sig) → Buf (Elt Ideal) ℓ) (ρ : Dev nD → PrngReg)

/-- The three inputs of the linear layer are real, entry by entry. -/
def Finite3 (c : Dev nD) : Prop :=
  (∀ i, ∃ v : ℝ, (m ((c : Thread nD τ).loc main_arg0)) i = (v : EReal)) ∧ (∀ i, ∃ v : ℝ, (m ((c : Thread nD τ).loc main_arg1)) i = (v : EReal))
    ∧ (∀ i, ∃ v : ℝ, (m ((c : Thread nD τ).loc main_arg2)) i = (v : EReal))

/-- What the result array ends holding. -/
abbrev result (c : Dev nD) : Buf (Elt Ideal) ((c : Thread nD τ).loc main_v16) :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The linear layer's entries are real. -/
theorem lin_real (c : Dev nD) (hfin : Finite3 m c) (R : Fin 16384) (n : Fin 4096) :
    ∃ y : ℝ, lin (m ((c : Thread nD τ).loc main_arg0)) (m ((c : Thread nD τ).loc main_arg1)) (m ((c : Thread nD τ).loc main_arg2)) R n = (y : EReal) := by
  obtain ⟨h0, h1, h2⟩ := hfin
  choose x hx using h0
  choose w hw using h1
  choose b hb using h2
  refine ⟨(∑ k : Fin 4096, x (ix2 R k) * w (ix2 n k)) + b (ix1 n), ?_⟩
  unfold lin
  rw [EReal.coe_add, GroupStat.coe_sum]
  simp only [EReal.coe_mul, hx, hw, hb]

/-- What a write-back writes is its block of `result`. -/
theorem flushed_eq (c : Dev nD) (hfin : Finite3 m c) (t : Fin cfg0.N) (hf : (cfg0.win 8).flush t = true) :
    (dats m 0 c).flushed 8 t = ((cfg0.win 8).blk t).view.read (Elt Ideal) (result m c) := by
  have h7 : t.val % 8 = 7 := (flush0_8 t).mp hf
  have h0 : ¬t.val % 8 = 0 := by omega
  have hN : cfg0.N = 512 := N_0
  have ht := t.isLt
  rw [Value.flushed8_C m c t h0 h7, CaseValues.out_C]
  funext j
  obtain ⟨r, n, rfl⟩ : ∃ (r : Fin 256) (n : Fin 4096), j = ix2 r n := ⟨j 0, j 1, eq_ix2 j⟩
  have hr := r.isLt
  have hRlt : 256 * (t.val / 8) + r.val < 16384 := by omega
  have hemb : ((cfg0.win 8).blk t).view.emb (ix2 r n) = ix2 (⟨256 * (t.val / 8) + r.val, hRlt⟩ : Fin 16384) n := by
    funext a
    apply Fin.ext
    match a with
    | ⟨0, _⟩ => show win0_8.index t 0 * 256 + 1 * r.val = 256 * (t.val / 8) + r.val; rw [(Blocks.idx8 t).1]; omega
    | ⟨1, _⟩ => show win0_8.index t 1 * 4096 + 1 * n.val = n.val; rw [(Blocks.idx8 t).2]; omega
  rw [View.read_apply, hemb]
  show k0_pay3 (F := Ideal) (k0_pay4 (F := Ideal) (k0_pay2 (F := Ideal) (iblk m c 0 t) (iblk m c 1 t) (outsAt0 m c (t.val - 1) (Nat.lt_of_le_of_lt (Nat.sub_le _ _) t.isLt)).2) (iblk m c 2 t) (iblk m c 6 t) (iblk m c 7 t) (iblk m c 4 t) (iblk m c 5 t)) (iblk m c 3 t) (ix2 r n) = _
  refine (Epilogue.pay3_apply (k0_pay4 (F := Ideal) (k0_pay2 (F := Ideal) (iblk m c 0 t) (iblk m c 1 t) (outsAt0 m c (t.val - 1) (Nat.lt_of_le_of_lt (Nat.sub_le _ _) t.isLt)).2) (iblk m c 2 t) (iblk m c 6 t) (iblk m c 7 t) (iblk m c 4 t) (iblk m c 5 t)) (iblk m c 3 t) r n).trans ?_
  rw [Epilogue.pay4_apply (k0_pay2 (F := Ideal) (iblk m c 0 t) (iblk m c 1 t) (outsAt0 m c (t.val - 1) (Nat.lt_of_le_of_lt (Nat.sub_le _ _) t.isLt)).2) (iblk m c 2 t) (iblk m c 6 t) (iblk m c 7 t) (iblk m c 4 t) (iblk m c 5 t)
    (fun n g => Blocks.g_blk m c t n g) (fun g n => Blocks.gt_blk m c t g n) r n]
  rw [Blocks.gnw_blk m c t n, Blocks.gnb_blk m c t n, Blocks.mulw_blk m c t n]
  have hY : (fun n' : Fin 4096 => (k0_pay2 (F := Ideal) (iblk m c 0 t) (iblk m c 1 t) (outsAt0 m c (t.val - 1) (Nat.lt_of_le_of_lt (Nat.sub_le _ _) t.isLt)).2) (ix2 r n') + (iblk m c 2 t : Vec Ideal S1x4096 .f32) (ix2 (0 : Fin 1) n'))
      = lin (m ((c : Thread nD τ).loc main_arg0)) (m ((c : Thread nD τ).loc main_arg1)) (m ((c : Thread nD τ).loc main_arg2)) ⟨256 * (t.val / 8) + r.val, hRlt⟩ := by
    funext n'
    rw [Accum.finished m c t h7 r n' ⟨256 * (t.val / 8) + r.val, hRlt⟩ rfl, Blocks.bias_blk m c t n']
    rfl
  rw [hY, Epilogue.normedK_eq _ (fun n' => lin_real m c hfin _ n') n]
  rfl

/-- Every entry of the array is in some write-back's block. -/
theorem cover (i : S16384x4096.Idx) : ∃ t : Fin cfg0.N, (cfg0.win 8).flush t = true ∧ i ∈ ((cfg0.win 8).blk t).view.set := by
  have hN : cfg0.N = 512 := N_0
  have h0 : (i 0 : Nat) < 16384 := (i 0).isLt
  have h1 : (i 1 : Nat) < 4096 := (i 1).isLt
  have hlt : 8 * ((i 0).val / 256) + 7 < cfg0.N := by omega
  obtain ⟨t, htv⟩ : ∃ t : Fin cfg0.N, t.val = 8 * ((i 0).val / 256) + 7 := ⟨⟨_, hlt⟩, rfl⟩
  refine ⟨t, (flush0_8 t).mpr (by omega), ?_⟩
  show i ∈ ((View.whole main_v16).slice (win0_8.rect t)).set
  rw [View.set_slice_whole, Rect.mem_set_unit]
  intro a
  match a with
  | ⟨0, _⟩ =>
    show win0_8.index t 0 * 256 ≤ (i 0 : Nat) ∧ (i 0 : Nat) < win0_8.index t 0 * 256 + 256
    rw [(Blocks.idx8 t).1]
    omega
  | ⟨1, _⟩ =>
    show win0_8.index t 1 * 4096 ≤ (i 1 : Nat) ∧ (i 1 : Nat) < win0_8.index t 1 * 4096 + 4096
    rw [(Blocks.idx8 t).2]
    omega

/-- The result array after the run. -/
theorem final (c : Dev nD) (hfin : Finite3 m c) : (dats m 0 c).arrAt 8 cfg0.N = result m c :=
  (dats m 0 c).arrAt_eq_of_cover 8 (result m c) (flushed_eq m c hfin) cover

/-- The run, read: the result array at `result`, the arguments unchanged. -/
theorem run (hfin : ∀ c, Finite3 m c) : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (hfin c)), (h c).2⟩) (Value.run_blocks m ρ)

end Cert.KernelIdeal.Result

end
-- ==== Proof.RefValue.lean ====
import proofs.«100290_j62852551409980_1_alg».proof.Proof.Gen.ReferenceIdeal.Read
import proofs.«100290_j62852551409980_1_alg».proof.Proof.Spec
import Idealize.ShloMosaic.Lib.IdealHost

/-!
# The reference program's result is the specification function

Read index by index, the reference computes: the linear layer's entry; its reshape into 256 groups of 16
consecutive channels (channel `n` is member `n % 16` of group `n / 16`, and member `j` of group `g` is channel
`16 g + j`); the group's mean and the mean of the squared deviations, both as sums over the 16 members divided by
the word for sixteen; the deviation divided by the square root of that variance plus the small constant; and, back
in channel order, scale, shift, `v ↦ v · logistic v`, the per-channel factor, and `v ↦ v · logistic v` again.
-/

noncomputable section

namespace Cert.ReferenceIdeal.RefValue

open Cert.ReferenceIdeal Cert.ReferenceIdeal.Gen Idealize.ShloMosaic Idealize.ShloMosaic.ValueIdx

/-! ### Index equations: the composed index functions of the layout operations, in coordinates -/

/-- the left operand of the product is read at (row, k) -/
theorem lidx_v0 (r : Fin 16384) (n k : Fin 4096) : Read.lidx_main_v0 (ix2 r n) k = ix2 r k :=
  funext fun a => by match a with | ⟨0, _⟩ => rfl | ⟨1, _⟩ => rfl

/-- the right operand of the product is read at (channel, k) -/
theorem ridx_v0 (r : Fin 16384) (n k : Fin 4096) : Read.ridx_main_v0 (ix2 r n) k = ix2 n k :=
  funext fun a => by match a with | ⟨0, _⟩ => rfl | ⟨1, _⟩ => rfl

/-- a per-channel vector broadcast along the rows is read at the channel -/
theorem idx_v1_v2 (r : Fin 16384) (n : Fin 4096) : Read.idx_main_v1 (Read.idx_main_v2 (ix2 r n)) = ix1 n :=
  funext fun a => by match a with | ⟨0, _⟩ => rfl
theorem idx_v24_v25 (r : Fin 16384) (n : Fin 4096) : Read.idx_main_v24 (Read.idx_main_v25 (ix2 r n)) = ix1 n :=
  funext fun a => by match a with | ⟨0, _⟩ => rfl
theorem idx_v27_v28 (r : Fin 16384) (n : Fin 4096) : Read.idx_main_v27 (Read.idx_main_v28 (ix2 r n)) = ix1 n :=
  funext fun a => by match a with | ⟨0, _⟩ => rfl
theorem idx_v37_v38 (r : Fin 16384) (n : Fin 4096) : Read.idx_main_v37 (Read.idx_main_v38 (ix2 r n)) = ix1 n :=
  funext fun a => by match a with | ⟨0, _⟩ => rfl

/-- the reshape to groups reads member j of group g at channel 16 g + j: ((256 r + g) 16 + j) = 4096 r + (16 g + j) -/
theorem idx_v4 (r : Fin 16384) (g : Fin 256) (j : Fin 16) :
    Read.idx_main_v4 (ix3 r g j) = ix2 r (Cert.Spec.member g j) :=
  funext fun a => Fin.ext (by
    have hr := r.isLt; have hg := g.isLt; have hj := j.isLt
    match a with
    | ⟨0, _⟩ => show ((r.val * 256 + g.val) * 16 + j.val) / 4096 = r.val; omega
    | ⟨1, _⟩ => show ((r.val * 256 + g.val) * 16 + j.val) % 4096 = 16 * g.val + j.val; omega)

/-- the reshape back to channels reads channel n at member n % 16 of group n / 16 -/
theorem idx_v23 (r : Fin 16384) (n : Fin 4096) :
    Read.idx_main_v23 (ix2 r n) = ix3 r (Cert.Spec.groupOf n) (⟨n.val % 16, Nat.mod_lt _ (by norm_num)⟩ : Fin 16) :=
  funext fun a => Fin.ext (by
    have hr := r.isLt; have hn := n.isLt
    match a with
    | ⟨0, _⟩ => show (r.val * 4096 + n.val) / 4096 = r.val; omega
    | ⟨1, _⟩ => show (r.val * 4096 + n.val) / 16 % 256 = n.val / 16; omega
    | ⟨2, _⟩ => show (r.val * 4096 + n.val) % 16 = n.val % 16; omega)

/-- channel n is member n % 16 of its group -/
theorem member_groupOf (n : Fin 4096) :
    Cert.Spec.member (Cert.Spec.groupOf n) (⟨n.val % 16, Nat.mod_lt _ (by norm_num)⟩ : Fin 16) = n :=
  Fin.ext (by show 16 * (n.val / 16) + n.val % 16 = n.val; omega)

/-- a sum over the members of a group reads (row, group, member) -/
theorem idx_v5 (r : Fin 16384) (g : Fin 256) (k : Fin 16) : Read.idx_main_v5 (ix2 r g) k = ix3 r g k :=
  funext fun a => by match a with | ⟨0, _⟩ => rfl | ⟨1, _⟩ => rfl | ⟨2, _⟩ => rfl
theorem idx_v12 (r : Fin 16384) (g : Fin 256) (k : Fin 16) : Read.idx_main_v12 (ix2 r g) k = ix3 r g k :=
  funext fun a => by match a with | ⟨0, _⟩ => rfl | ⟨1, _⟩ => rfl | ⟨2, _⟩ => rfl

/-- a per-group value kept with a trailing axis of size one is read at (row, group) -/
theorem idx_v6 (r : Fin 16384) (g : Fin 256) (z : Fin 1) : Read.idx_main_v6 (ix3 r g z) = ix2 r g :=
  funext fun a => by match a with | ⟨0, _⟩ => rfl | ⟨1, _⟩ => rfl
theorem idx_v13 (r : Fin 16384) (g : Fin 256) (z : Fin 1) : Read.idx_main_v13 (ix3 r g z) = ix2 r g :=
  funext fun a => by match a with | ⟨0, _⟩ => rfl | ⟨1, _⟩ => rfl

/-- a per-group value broadcast to the members is read at (row, group, 0) -/
theorem idx_v9 (r : Fin 16384) (g : Fin 256) (j : Fin 16) : Read.idx_main_v9 (ix3 r g j) = ix3 r g (0 : Fin 1) :=
  funext fun a => by match a with | ⟨0, _⟩ => rfl | ⟨1, _⟩ => rfl | ⟨2, _⟩ => rfl
theorem idx_v16 (r : Fin 16384) (g : Fin 256) (j : Fin 16) : Read.idx_main_v16 (ix3 r g j) = ix3 r g (0 : Fin 1) :=
  funext fun a => by match a with | ⟨0, _⟩ => rfl | ⟨1, _⟩ => rfl | ⟨2, _⟩ => rfl
theorem idx_v21 (r : Fin 16384) (g : Fin 256) (j : Fin 16) : Read.idx_main_v21 (ix3 r g j) = ix3 r g (0 : Fin 1) :=
  funext fun a => by match a with | ⟨0, _⟩ => rfl | ⟨1, _⟩ => rfl | ⟨2, _⟩ => rfl

/-! ### The stages of the reference, read at coordinates -/

section Stages

variable (x0 : (⟨S16384x4096, .f32⟩ : BufTy).Contents (Elt Ideal)) (x1 : (⟨S4096x4096, .f32⟩ : BufTy).Contents (Elt Ideal))
  (x2 : (⟨S4096, .f32⟩ : BufTy).Contents (Elt Ideal))

/-- the linear layer: the sum over k of x (r, k) · w (n, k), plus the bias at n -/
theorem v3_at (r : Fin 16384) (n : Fin 4096) :
    Read.val_main_v3 (F := Ideal) x0 x1 x2 (ix2 r n) = Cert.Spec.lin x0 x1 x2 r n := by
  rw [Read.val_main_v3_apply, Read.val_main_v0_apply, Read.val_main_v2_apply, Read.val_main_v1_apply, idx_v1_v2]
  simp only [lidx_v0, ridx_v0, Ideal.addf_def]
  rfl

/-- the reshaped entry: member j of group g is channel 16 g + j -/
theorem v4_at (r : Fin 16384) (g : Fin 256) (j : Fin 16) :
    Read.val_main_v4 (F := Ideal) x0 x1 x2 (ix3 r g j) = Cert.Spec.lin x0 x1 x2 r (Cert.Spec.member g j) := by
  rw [Read.val_main_v4_apply, idx_v4, v3_at]

/-- the group's mean: the sum of the 16 members (from zero) divided by sixteen -/
theorem v8_at (r : Fin 16384) (g : Fin 256) (z : Fin 1) :
    Read.val_main_v8 (F := Ideal) x0 x1 x2 (ix3 r g z) = Cert.Spec.mean (Cert.Spec.lin x0 x1 x2 r) g := by
  rw [Read.val_main_v8_apply, Read.val_main_v6_apply, idx_v6, Read.val_main_v5_apply, Read.val_main_v7_apply,
    Read.val_main_cst_apply, Read.val_main_cst_0_apply]
  simp only [idx_v5, v4_at, Ideal.hostDivf_def, Ideal.ofBits_def, Ideal.ofBits_zero_f32, zero_add]
  rfl

/-- the group's variance: the sum of the 16 squared deviations (from zero) divided by sixteen -/
theorem v15_at (r : Fin 16384) (g : Fin 256) (z : Fin 1) :
    Read.val_main_v15 (F := Ideal) x0 x1 x2 (ix3 r g z)
      = Ideal.div (∑ j : Fin 16,
          (Cert.Spec.lin x0 x1 x2 r (Cert.Spec.member g j) - Cert.Spec.mean (Cert.Spec.lin x0 x1 x2 r) g)
            * (Cert.Spec.lin x0 x1 x2 r (Cert.Spec.member g j) - Cert.Spec.mean (Cert.Spec.lin x0 x1 x2 r) g))
          Cert.Spec.sixteen := by
  rw [Read.val_main_v15_apply, Read.val_main_v13_apply, idx_v13, Read.val_main_v12_apply, Read.val_main_v14_apply,
    Read.val_main_cst_1_apply, Read.val_main_cst_2_apply]
  simp only [idx_v12, Read.val_main_v11_apply, Read.val_main_v10_apply, Read.val_main_v9_apply, idx_v9, v4_at, v8_at,
    Ideal.hostDivf_def, Ideal.mulf_def, Ideal.subf_def, Ideal.ofBits_def, Ideal.ofBits_zero_f32, zero_add]

/-- the normalized entry of member j of group g -/
theorem v22_at (r : Fin 16384) (g : Fin 256) (j : Fin 16) :
    Read.val_main_v22 (F := Ideal) x0 x1 x2 (ix3 r g j)
      = Ideal.div (Cert.Spec.lin x0 x1 x2 r (Cert.Spec.member g j) - Cert.Spec.mean (Cert.Spec.lin x0 x1 x2 r) g)
          (Ideal.sqrt (Ideal.div (∑ j : Fin 16,
            (Cert.Spec.lin x0 x1 x2 r (Cert.Spec.member g j) - Cert.Spec.mean (Cert.Spec.lin x0 x1 x2 r) g)
              * (Cert.Spec.lin x0 x1 x2 r (Cert.Spec.member g j) - Cert.Spec.mean (Cert.Spec.lin x0 x1 x2 r) g))
            Cert.Spec.sixteen + Cert.Spec.eps)) := by
  rw [Read.val_main_v22_apply, Read.val_main_v17_apply, Read.val_main_v16_apply, idx_v16, Read.val_main_v21_apply, idx_v21,
    Read.val_main_v20_apply, Read.val_main_v19_apply, Read.val_main_v18_apply, Read.val_main_cst_3_apply, v4_at, v8_at, v15_at]
  simp only [Ideal.hostDivf_def, Ideal.hostUnary_sqrt_def, Ideal.addf_def, Ideal.subf_def, Ideal.ofBits_def]

/-- back in channel order: the entry of channel n normalized within its group -/
theorem v23_at (r : Fin 16384) (n : Fin 4096) :
    Read.val_main_v23 (F := Ideal) x0 x1 x2 (ix2 r n) = Cert.Spec.normed (Cert.Spec.lin x0 x1 x2 r) n := by
  rw [Read.val_main_v23_apply, idx_v23, v22_at, member_groupOf]
  rfl

end Stages

/-- the reference's result is the specification function -/
theorem ref_eq (x0 : (⟨S16384x4096, .f32⟩ : BufTy).Contents (Elt Ideal)) (x1 : (⟨S4096x4096, .f32⟩ : BufTy).Contents (Elt Ideal)) (x2 x3 x4 x5 : (⟨S4096, .f32⟩ : BufTy).Contents (Elt Ideal)) :
    Read.val_main_v46 (F := Ideal) x0 x1 x2 x3 x4 x5 = Cert.Spec.G x0 x1 x2 x3 x4 x5 := by
  funext i
  obtain ⟨r, n, rfl⟩ : ∃ (r : Fin 16384) (n : Fin 4096), i = ix2 r n := ⟨i 0, i 1, eq_ix2 i⟩
  simp only [Read.val_main_v46_apply, Read.val_main_v45_apply, Read.val_main_v44_apply, Read.val_main_cst_7_apply,
    Read.val_main_v43_apply, Read.val_main_v42_apply, Read.val_main_cst_6_apply, Read.val_main_v41_apply,
    Read.val_main_v40_apply, Read.val_main_v39_apply, Read.val_main_v38_apply, Read.val_main_v37_apply,
    Read.val_main_v36_apply, Read.val_main_v35_apply, Read.val_main_v34_apply, Read.val_main_cst_5_apply,
    Read.val_main_v33_apply, Read.val_main_v32_apply, Read.val_main_cst_4_apply, Read.val_main_v31_apply,
    Read.val_main_v30_apply, Read.val_main_v29_apply, Read.val_main_v28_apply, Read.val_main_v27_apply,
    Read.val_main_v26_apply, Read.val_main_v25_apply, Read.val_main_v24_apply,
    idx_v24_v25, idx_v27_v28, idx_v37_v38, v23_at,
    Ideal.hostDivf_def, Ideal.hostUnary_exp_def, Ideal.hostNegf_def, Ideal.negf_def, Ideal.addf_def, Ideal.mulf_def,
    Ideal.ofBits_def, Ideal.ofBits_one_f32]
  rfl

end Cert.ReferenceIdeal.RefValue
-- ==== Proof.Finite.lean ====
/-
  The precondition, decoded: every entry of `x`, of `w` and of the bias is a real number.

  The precondition is the conjunction, over the six inputs, of "every entry's absolute value is below +∞".  An
  extended real whose absolute value `max v (-v)` is below +∞ is neither infinity, hence a real.  (The linear layer
  needs only the first three inputs finite; the other three enter the result through operations that are the same
  on both sides.)
-/
import proofs.«100290_j62852551409980_1_alg».proof.Pre_finite_inputs
import Idealize.ShloMosaic.PureOps.Ideal.Laws
import Idealize.ShloMosaic.Lib.ReduceAll
import Idealize.ShloMosaic.Lib.Affine
import Idealize.ShloMosaic.Lib.ValueIdx

noncomputable section

namespace Cert.Finite

open Cert.Pre_finite_inputs Idealize.ShloMosaic Idealize.ShloMosaic.ValueIdx

instance : Subsingleton S_.Idx := ⟨fun a b => funext fun d => d.elim0⟩

/-- An extended real whose absolute value is below the word for +∞ is a real. -/
theorem real_of_abs_lt (v : EReal) (h : Ideal.cmp .olt (max v (-v)) (Ideal.ofBits .f32 0x7F800000#32) = 1#1) :
    ∃ r : ℝ, v = (r : EReal) := by
  have htop : Ideal.ofBits .f32 0x7F800000#32 = ⊤ := by simp [Ideal.ofBits, Ideal.ieee]
  rw [htop] at h
  induction v using EReal.rec with
  | bot => simp [Ideal.cmp] at h
  | coe r => exact ⟨r, rfl⟩
  | top => simp [Ideal.cmp] at h

variable [Facts]

/-- Where the precondition holds, the first three inputs are real entry by entry. -/
theorem finite_of_pre (a0 : FVec Ideal S16384x4096 .f32) (a1 : FVec Ideal S4096x4096 .f32) (a2 a3 a4 a5 : FVec Ideal S4096 .f32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [fn, fn_part1] at h0
  simp only [andi, IntOp.andi_eq_one] at h0
  obtain ⟨⟨⟨⟨⟨h3, h7⟩, h12⟩, -⟩, -⟩, -⟩ := h0
  exact ⟨fun i => real_of_abs_lt _ (Host.reduce_andi_all _ _ _ _ _ h3 i),
    fun i => real_of_abs_lt _ (Host.reduce_andi_all _ _ _ _ _ h7 i),
    fun i => real_of_abs_lt _ (Host.reduce_andi_all _ _ _ _ _ h12 i)⟩

end Cert.Finite

end
-- ==== Proof.lean ====
/-
  The five claims, assembled.

  The three frames are the generated runs with the result forgotten (the reference has no kernel: its frame is its
  run).  The idealization rewrote nothing, so `preserves` is trivial.  For `algebraic`: under the precondition the
  entries of `x`, `w` and the bias are real, so the kernel's result array is the specification function of its
  arguments (the accumulated contraction, the group statistics through the two 0/1 matrices, the reciprocal root in
  place of the quotient); the reference's result is the same function read index by index; and the two programs'
  arguments agree.
-/
import proofs.«100290_j62852551409980_1_alg».proof.Defs
import proofs.«100290_j62852551409980_1_alg».proof.Proof.Gen.Kernel
import proofs.«100290_j62852551409980_1_alg».proof.Proof.Gen.Kernel.Frame
import proofs.«100290_j62852551409980_1_alg».proof.Proof.Gen.KernelIdeal
import proofs.«100290_j62852551409980_1_alg».proof.Proof.Gen.KernelIdeal.Frame
import proofs.«100290_j62852551409980_1_alg».proof.Proof.Gen.KernelIdeal.Value
import proofs.«100290_j62852551409980_1_alg».proof.Proof.Gen.ReferenceIdeal
import proofs.«100290_j62852551409980_1_alg».proof.Proof.Gen.ReferenceIdeal.Run
import proofs.«100290_j62852551409980_1_alg».proof.Proof.Gen.ReferenceIdeal.Read
import proofs.«100290_j62852551409980_1_alg».proof.Proof.Gen.Pre_finite_inputs
import proofs.«100290_j62852551409980_1_alg».proof.Proof.KernelValue
import proofs.«100290_j62852551409980_1_alg».proof.Proof.RefValue
import proofs.«100290_j62852551409980_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition the linear layer's three inputs are real on every device. -/
theorem finite3 (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Result.Finite3 m c :=
  Cert.Finite.finite_of_pre _ _ _ _ _ _ (hpre c)

theorem algebraic : Cert.algebraic_KernelIdeal_ReferenceIdeal := by
  intro m ρ m' ρ' hpre hagree
  refine ⟨fun c => Cert.KernelIdeal.Result.result m c, Cert.KernelIdeal.Result.run m ρ (finite3 m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.ReferenceIdeal.RefValue.ref_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
